-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4 : Shape := ⟨2, ![32, 4]⟩
abbrev S32x3x262144 : Shape := ⟨3, ![32, 3, 262144]⟩
abbrev S_ : Shape := ⟨0, ![]⟩
abbrev S32 : Shape := ⟨1, ![32]⟩

class Facts : Prop where
  bcast_S_S32x4 : S_.BroadcastsInDim S32x4 (![] : Fin 0 → Fin S32x4.rank)
  reducesTo_S32x4_S_d0_1 : S32x4.ReducesTo [0, 1] S_
  h_S_ : 0 < S_.numel
  bcast_S_S32x3x262144 : S_.BroadcastsInDim S32x3x262144 (![] : Fin 0 → Fin S32x3x262144.rank)
  reducesTo_S32x3x262144_S_d0_1_2 : S32x3x262144.ReducesTo [0, 1, 2] S_
  reducesTo_S32x4_S32_d1 : S32x4.ReducesTo [1] S32
  bcast_S_S32 : S_.BroadcastsInDim S32 (![] : Fin 0 → Fin S32.rank)
  reducesTo_S32_S_d0 : S32.ReducesTo [0] S_

variable [Facts]

def fn_part1 {F : FTy → Type} [FloatOps F] (main_arg1 : FVec F S32x4 .f32) (main_v13 : IVec S_ 1) (main_v15 : FVec F S32 .f32) (main_cst_5 : FVec F S_ .f32) : IVec S_ 1 :=
  let main_v16 : FVec F S32 .f32 := broadcastInDim S32 ![] bcast_S_S32 main_cst_5
  let main_v17 : IVec S32 1 := cmpf .ogt main_v15 main_v16
  let main_c_6 : IVec S_ 1 := constantI S_ 1 1#1
  let main_v18 : IVec S_ 1 := (fun x v => Host.reduce IntOp.andi x v reducesTo_S32_S_d0 h_S_) main_v17 main_c_6
  let main_v19 : IVec S_ 1 := andi main_v13 main_v18
  let main_v20 : FVec F S32x4 .f32 := mulf main_arg1 main_arg1
  let main_cst_7 : FVec F S_ .f32 := constant S_ .f32 0x00000000#32
  let main_v21 : FVec F S32 .f32 := (fun x v => Host.reduceAdd x v reducesTo_S32x4_S32_d1 h_S_) main_v20 main_cst_7
  let main_cst_8 : FVec F S_ .f32 := constant S_ .f32 0x00000000#32
  let main_v22 : FVec F S32 .f32 := broadcastInDim S32 ![] bcast_S_S32 main_cst_8
  let main_v23 : IVec S32 1 := cmpf .ogt main_v21 main_v22
  let main_c_9 : IVec S_ 1 := constantI S_ 1 1#1
  let main_v24 : IVec S_ 1 := (fun x v => Host.reduce IntOp.andi x v reducesTo_S32_S_d0 h_S_) main_v23 main_c_9
  let main_v25 : IVec S_ 1 := andi main_v19 main_v24
  main_v25

def fn {F : FTy → Type} [FloatOps F] (main_arg0 : FVec F S32x4 .f32) (main_arg1 : FVec F S32x4 .f32) (main_arg2 : FVec F S32x3x262144 .f32) : IVec S_ 1 :=
  let main_v0 : FVec F S32x4 .f32 := Host.absf main_arg0
  let main_cst : FVec F S_ .f32 := constant S_ .f32 0x7F800000#32
  let main_v1 : FVec F S32x4 .f32 := broadcastInDim S32x4 ![] bcast_S_S32x4 main_cst
  let main_v2 : IVec S32x4 1 := cmpf .olt main_v0 main_v1
  let main_c : IVec S_ 1 := constantI S_ 1 1#1
  let main_v3 : IVec S_ 1 := (fun x v => Host.reduce IntOp.andi x v reducesTo_S32x4_S_d0_1 h_S_) main_v2 main_c
  let main_v4 : FVec F S32x4 .f32 := Host.absf main_arg1
  let main_cst_0 : FVec F S_ .f32 := constant S_ .f32 0x7F800000#32
  let main_v5 : FVec F S32x4 .f32 := broadcastInDim S32x4 ![] bcast_S_S32x4 main_cst_0
  let main_v6 : IVec S32x4 1 := cmpf .olt main_v4 main_v5
  let main_c_1 : IVec S_ 1 := constantI S_ 1 1#1
  let main_v7 : IVec S_ 1 := (fun x v => Host.reduce IntOp.andi x v reducesTo_S32x4_S_d0_1 h_S_) main_v6 main_c_1
  let main_v8 : IVec S_ 1 := andi main_v3 main_v7
  let main_v9 : FVec F S32x3x262144 .f32 := Host.absf main_arg2
  let main_cst_2 : FVec F S_ .f32 := constant S_ .f32 0x7F800000#32
  let main_v10 : FVec F S32x3x262144 .f32 := broadcastInDim S32x3x262144 ![] bcast_S_S32x3x262144 main_cst_2
  let main_v11 : IVec S32x3x262144 1 := cmpf .olt main_v9 main_v10
  let main_c_3 : IVec S_ 1 := constantI S_ 1 1#1
  let main_v12 : IVec S_ 1 := (fun x v => Host.reduce IntOp.andi x v reducesTo_S32x3x262144_S_d0_1_2 h_S_) main_v11 main_c_3
  let main_v13 : IVec S_ 1 := andi main_v8 main_v12
  let main_v14 : FVec F S32x4 .f32 := mulf main_arg0 main_arg0
  let main_cst_4 : FVec F S_ .f32 := constant S_ .f32 0x00000000#32
  let main_v15 : FVec F S32 .f32 := (fun x v => Host.reduceAdd x v reducesTo_S32x4_S32_d1 h_S_) main_v14 main_cst_4
  let main_cst_5 : FVec F S_ .f32 := constant S_ .f32 0x00000000#32
  fn_part1 (F := F) main_arg1 main_v13 main_v15 main_cst_5
-- ==== Kernel.lean ====
abbrev S32x4 : Shape := ⟨2, ![32, 4]⟩
abbrev S32x3x262144 : Shape := ⟨3, ![32, 3, 262144]⟩
abbrev S32x3x3 : Shape := ⟨3, ![32, 3, 3]⟩
abbrev S1x3x262144 : Shape := ⟨3, ![1, 3, 262144]⟩
abbrev S1x3x3 : Shape := ⟨3, ![1, 3, 3]⟩
abbrev S3x262144 : Shape := ⟨2, ![3, 262144]⟩
abbrev S3x3 : Shape := ⟨2, ![3, 3]⟩
abbrev S_ : Shape := ⟨0, ![]⟩
abbrev S32 : Shape := ⟨1, ![32]⟩
abbrev S32x1 : Shape := ⟨2, ![32, 1]⟩
abbrev S32x3 : Shape := ⟨2, ![32, 3]⟩
abbrev S32x1x3 : Shape := ⟨3, ![32, 1, 3]⟩
abbrev S3 : Shape := ⟨1, ![3]⟩
abbrev S3x1 : Shape := ⟨2, ![3, 1]⟩
abbrev S3x2 : Shape := ⟨2, ![3, 2]⟩
abbrev S32x3x1 : Shape := ⟨3, ![32, 3, 1]⟩

abbrev nBuf : Space → Nat
  | .hbm => 239
  | .vmem => 4
  | .smem => 0
  | _ => 0

abbrev hbmTy0_0 (i : Nat) : BufTy := match i % 128 with
  | 0 => ⟨S32x4, .f32⟩
  | 1 => ⟨S32x4, .f32⟩
  | 2 => ⟨S32x3x262144, .f32⟩
  | 3 => ⟨S32x3x3, .f32⟩
  | 4 => ⟨S32x4, .f32⟩
  | 5 => ⟨S_, .f32⟩
  | 6 => ⟨S32, .f32⟩
  | 7 => ⟨S32x1, .f32⟩
  | 8 => ⟨S32x1, .f32⟩
  | 9 => ⟨S32x4, .f32⟩
  | 10 => ⟨S32x4, .f32⟩
  | 11 => ⟨S32x1, .f32⟩
  | 12 => ⟨S32, .f32⟩
  | 13 => ⟨S32x1, .f32⟩
  | 14 => ⟨S32, .f32⟩
  | 15 => ⟨S32x1, .f32⟩
  | 16 => ⟨S32, .f32⟩
  | 17 => ⟨S32x1, .f32⟩
  | 18 => ⟨S32, .f32⟩
  | 19 => ⟨S32, .f32⟩
  | 20 => ⟨S32, .f32⟩
  | 21 => ⟨S32, .f32⟩
  | 22 => ⟨S32, .f32⟩
  | 23 => ⟨S32, .f32⟩
  | 24 => ⟨S32, .f32⟩
  | 25 => ⟨S32, .f32⟩
  | 26 => ⟨S32, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S32, .f32⟩
  | 36 => ⟨S_, .f32⟩
  | 37 => ⟨S32, .f32⟩
  | 38 => ⟨S32, .f32⟩
  | 39 => ⟨S32, .f32⟩
  | 40 => ⟨S_, .f32⟩
  | 41 => ⟨S32, .f32⟩
  | 42 => ⟨S32, .f32⟩
  | 43 => ⟨S32x1, .f32⟩
  | 44 => ⟨S32x1, .f32⟩
  | 45 => ⟨S32x1, .f32⟩
  | 46 => ⟨S32x3, .f32⟩
  | 47 => ⟨S32, .f32⟩
  | 48 => ⟨S_, .f32⟩
  | 49 => ⟨S32, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S32, .f32⟩
  | 59 => ⟨S_, .f32⟩
  | 60 => ⟨S32, .f32⟩
  | 61 => ⟨S32, .f32⟩
  | 62 => ⟨S32x1, .f32⟩
  | 63 => ⟨S32x1, .f32⟩
  | 64 => ⟨S32x1, .f32⟩
  | 65 => ⟨S32x3, .f32⟩
  | 66 => ⟨S32, .f32⟩
  | 67 => ⟨S_, .f32⟩
  | 68 => ⟨S32, .f32⟩
  | 69 => ⟨S32, .f32⟩
  | 70 => ⟨S32, .f32⟩
  | 71 => ⟨S_, .f32⟩
  | 72 => ⟨S32, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S32x1, .f32⟩
  | 82 => ⟨S32x1, .f32⟩
  | 83 => ⟨S32x1, .f32⟩
  | 84 => ⟨S32x3, .f32⟩
  | 85 => ⟨S32x1x3, .f32⟩
  | 86 => ⟨S32x1x3, .f32⟩
  | 87 => ⟨S32x1x3, .f32⟩
  | 88 => ⟨S32x3x3, .f32⟩
  | 89 => ⟨S32x4, .f32⟩
  | 90 => ⟨S_, .f32⟩
  | 91 => ⟨S32, .f32⟩
  | 92 => ⟨S32x1, .f32⟩
  | 93 => ⟨S32x1, .f32⟩
  | 94 => ⟨S32x4, .f32⟩
  | 95 => ⟨S32x4, .f32⟩
  | 96 => ⟨S32x1, .f32⟩
  | 97 => ⟨S32, .f32⟩
  | 98 => ⟨S32x1, .f32⟩
  | 99 => ⟨S32, .f32⟩
  | 100 => ⟨S32x1, .f32⟩
  | 101 => ⟨S32, .f32⟩
  | 102 => ⟨S32x1, .f32⟩
  | 103 => ⟨S32, .f32⟩
  | 104 => ⟨S32, .f32⟩
  | 105 => ⟨S32, .f32⟩
  | 106 => ⟨S32, .f32⟩
  | 107 => ⟨S32, .f32⟩
  | 108 => ⟨S32, .f32⟩
  | 109 => ⟨S32, .f32⟩
  | 110 => ⟨S32, .f32⟩
  | 111 => ⟨S32, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S32, .f32⟩
  | 121 => ⟨S_, .f32⟩
  | 122 => ⟨S32, .f32⟩
  | 123 => ⟨S32, .f32⟩
  | 124 => ⟨S32, .f32⟩
  | 125 => ⟨S_, .f32⟩
  | 126 => ⟨S32, .f32⟩
  | 127 => ⟨S32, .f32⟩
  | _ => ⟨S32x4, .f32⟩

abbrev hbmTy0_1 (i : Nat) : BufTy := match i % 128 with
  | 0 => ⟨S32x1, .f32⟩
  | 1 => ⟨S32x1, .f32⟩
  | 2 => ⟨S32x1, .f32⟩
  | 3 => ⟨S32x3, .f32⟩
  | 4 => ⟨S32, .f32⟩
  | 5 => ⟨S_, .f32⟩
  | 6 => ⟨S32, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S32x1, .f32⟩
  | 20 => ⟨S32x1, .f32⟩
  | 21 => ⟨S32x1, .f32⟩
  | 22 => ⟨S32x3, .f32⟩
  | 23 => ⟨S32, .f32⟩
  | 24 => ⟨S_, .f32⟩
  | 25 => ⟨S32, .f32⟩
  | 26 => ⟨S32, .f32⟩
  | 27 => ⟨S32, .f32⟩
  | 28 => ⟨S_, .f32⟩
  | 29 => ⟨S32, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S32x1, .f32⟩
  | 39 => ⟨S32x1, .f32⟩
  | 40 => ⟨S32x1, .f32⟩
  | 41 => ⟨S32x3, .f32⟩
  | 42 => ⟨S32x1x3, .f32⟩
  | 43 => ⟨S32x1x3, .f32⟩
  | 44 => ⟨S32x1x3, .f32⟩
  | 45 => ⟨S32x3x3, .f32⟩
  | 46 => ⟨S32x3x3, .f32⟩
  | 47 => ⟨S32x3x3, .f32⟩
  | 48 => ⟨S32x3x3, .f32⟩
  | 49 => ⟨S32x3x3, .f32⟩
  | 50 => ⟨S32x3x3, .f32⟩
  | 51 => ⟨S3, .i32⟩
  | 52 => ⟨S3, .i32⟩
  | 53 => ⟨S_, .i32⟩
  | 54 => ⟨S3, .i32⟩
  | 55 => ⟨S3, .i1⟩
  | 56 => ⟨S_, .i32⟩
  | 57 => ⟨S3, .i32⟩
  | 58 => ⟨S3, .i32⟩
  | 59 => ⟨S3, .i32⟩
  | 60 => ⟨S_, .i32⟩
  | 61 => ⟨S3, .i32⟩
  | 62 => ⟨S3, .i1⟩
  | 63 => ⟨S_, .i32⟩
  | 64 => ⟨S3, .i32⟩
  | 65 => ⟨S3, .i32⟩
  | 66 => ⟨S3, .i32⟩
  | 67 => ⟨S3x1, .i32⟩
  | 68 => ⟨S3x1, .i32⟩
  | 69 => ⟨S3x2, .i32⟩
  | 70 => ⟨S32x3, .f32⟩
  | 71 => ⟨S3, .i32⟩
  | 72 => ⟨S3, .i32⟩
  | 73 => ⟨S_, .i32⟩
  | 74 => ⟨S3, .i32⟩
  | 75 => ⟨S3, .i1⟩
  | 76 => ⟨S_, .i32⟩
  | 77 => ⟨S3, .i32⟩
  | 78 => ⟨S3, .i32⟩
  | 79 => ⟨S3, .i32⟩
  | 80 => ⟨S_, .i32⟩
  | 81 => ⟨S3, .i32⟩
  | 82 => ⟨S3, .i1⟩
  | 83 => ⟨S_, .i32⟩
  | 84 => ⟨S3, .i32⟩
  | 85 => ⟨S3, .i32⟩
  | 86 => ⟨S3, .i32⟩
  | 87 => ⟨S3x1, .i32⟩
  | 88 => ⟨S3x1, .i32⟩
  | 89 => ⟨S3x2, .i32⟩
  | 90 => ⟨S32x3, .f32⟩
  | 91 => ⟨S32x3x1, .f32⟩
  | 92 => ⟨S_, .f32⟩
  | 93 => ⟨S32x3x3, .f32⟩
  | 94 => ⟨S32x3x3, .f32⟩
  | 95 => ⟨S32x3x3, .f32⟩
  | 96 => ⟨S32x3x3, .f32⟩
  | 97 => ⟨S32x1x3, .f32⟩
  | 98 => ⟨S32x3x3, .f32⟩
  | 99 => ⟨S32x3x3, .f32⟩
  | 100 => ⟨S_, .f32⟩
  | 101 => ⟨S32x3, .f32⟩
  | 102 => ⟨S_, .f32⟩
  | 103 => ⟨S32, .f32⟩
  | 104 => ⟨S_, .f32⟩
  | 105 => ⟨S32, .f32⟩
  | 106 => ⟨S32, .f32⟩
  | 107 => ⟨S_, .f32⟩
  | 108 => ⟨S_, .f32⟩
  | 109 => ⟨S_, .f32⟩
  | 110 => ⟨S_, .f32⟩
  | _ => ⟨S32x4, .f32⟩

abbrev hbmTy (i : Nat) : BufTy := match i / 128 with
  | 0 => hbmTy0_0 i
  | 1 => hbmTy0_1 i
  | _ => ⟨S32x4, .f32⟩

abbrev bufTy : (tb : Table) → Fin (tcTables nBuf tb) → BufTy
  | .hbm, ⟨i, _⟩ => hbmTy i
  | .local _ .vmem, ⟨0, _⟩ => ⟨S1x3x262144, .f32⟩
  | .local _ .vmem, ⟨1, _⟩ => ⟨S1x3x262144, .f32⟩
  | .local _ .vmem, ⟨2, _⟩ => ⟨S1x3x3, .f32⟩
  | .local _ .vmem, ⟨3, _⟩ => ⟨S1x3x3, .f32⟩
  | _, _ => ⟨S32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_call1_v0 : Ref sig .tc := ⟨.hbm, 89, rfl⟩
abbrev main_call1_cst : Ref sig .tc := ⟨.hbm, 90, rfl⟩
abbrev main_call1_v1 : Ref sig .tc := ⟨.hbm, 91, rfl⟩
abbrev main_call1_v2 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_11 : Ref sig .tc := ⟨.hbm, 114, rfl⟩
abbrev main_v91 : Ref sig .tc := ⟨.hbm, 115, rfl⟩
abbrev main_v92 : Ref sig .tc := ⟨.hbm, 116, rfl⟩
abbrev main_cst_12 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_13 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_14 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_15 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_16 : Ref sig .tc := ⟨.hbm, 137, rfl⟩
abbrev main_v109 : Ref sig .tc := ⟨.hbm, 138, rfl⟩
abbrev main_v110 : Ref sig .tc := ⟨.hbm, 139, rfl⟩
abbrev main_cst_17 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_18 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_19 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_20 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_21 : Ref sig .tc := ⟨.hbm, 160, rfl⟩
abbrev main_v127 : Ref sig .tc := ⟨.hbm, 161, rfl⟩
abbrev main_v128 : Ref sig .tc := ⟨.hbm, 162, rfl⟩
abbrev main_cst_22 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_call2_v0 : Ref sig .tc := ⟨.hbm, 179, rfl⟩
abbrev main_call2_v1 : Ref sig .tc := ⟨.hbm, 180, rfl⟩
abbrev main_call2_c : Ref sig .tc := ⟨.hbm, 181, rfl⟩
abbrev main_call2_v2 : Ref sig .tc := ⟨.hbm, 182, rfl⟩
abbrev main_call2_v3 : Ref sig .tc := ⟨.hbm, 183, rfl⟩
abbrev main_call2_c_0 : Ref sig .tc := ⟨.hbm, 184, rfl⟩
abbrev main_call2_v4 : Ref sig .tc := ⟨.hbm, 185, rfl⟩
abbrev main_call2_v5 : Ref sig .tc := ⟨.hbm, 186, rfl⟩
abbrev main_call2_v6 : Ref sig .tc := ⟨.hbm, 187, rfl⟩
abbrev main_call2_c_1 : Ref sig .tc := ⟨.hbm, 188, rfl⟩
abbrev main_call2_v7 : Ref sig .tc := ⟨.hbm, 189, rfl⟩
abbrev main_call2_v8 : Ref sig .tc := ⟨.hbm, 190, rfl⟩
abbrev main_call2_c_2 : Ref sig .tc := ⟨.hbm, 191, rfl⟩
abbrev main_call2_v9 : Ref sig .tc := ⟨.hbm, 192, rfl⟩
abbrev main_call2_v10 : Ref sig .tc := ⟨.hbm, 193, rfl⟩
abbrev main_call2_v11 : Ref sig .tc := ⟨.hbm, 194, rfl⟩
abbrev main_call2_v12 : Ref sig .tc := ⟨.hbm, 195, rfl⟩
abbrev main_call2_v13 : Ref sig .tc := ⟨.hbm, 196, rfl⟩
abbrev main_call2_v14 : Ref sig .tc := ⟨.hbm, 197, rfl⟩
abbrev main_v144 : Ref sig .tc := ⟨.hbm, 198, rfl⟩
abbrev main_call3_v0 : Ref sig .tc := ⟨.hbm, 199, rfl⟩
abbrev main_call3_v1 : Ref sig .tc := ⟨.hbm, 200, rfl⟩
abbrev main_call3_c : Ref sig .tc := ⟨.hbm, 201, rfl⟩
abbrev main_call3_v2 : Ref sig .tc := ⟨.hbm, 202, rfl⟩
abbrev main_call3_v3 : Ref sig .tc := ⟨.hbm, 203, rfl⟩
abbrev main_call3_c_0 : Ref sig .tc := ⟨.hbm, 204, rfl⟩
abbrev main_call3_v4 : Ref sig .tc := ⟨.hbm, 205, rfl⟩
abbrev main_call3_v5 : Ref sig .tc := ⟨.hbm, 206, rfl⟩
abbrev main_call3_v6 : Ref sig .tc := ⟨.hbm, 207, rfl⟩
abbrev main_call3_c_1 : Ref sig .tc := ⟨.hbm, 208, rfl⟩
abbrev main_call3_v7 : Ref sig .tc := ⟨.hbm, 209, rfl⟩
abbrev main_call3_v8 : Ref sig .tc := ⟨.hbm, 210, rfl⟩
abbrev main_call3_c_2 : Ref sig .tc := ⟨.hbm, 211, rfl⟩
abbrev main_call3_v9 : Ref sig .tc := ⟨.hbm, 212, rfl⟩
abbrev main_call3_v10 : Ref sig .tc := ⟨.hbm, 213, rfl⟩
abbrev main_call3_v11 : Ref sig .tc := ⟨.hbm, 214, rfl⟩
abbrev main_call3_v12 : Ref sig .tc := ⟨.hbm, 215, rfl⟩
abbrev main_call3_v13 : Ref sig .tc := ⟨.hbm, 216, rfl⟩
abbrev main_call3_v14 : Ref sig .tc := ⟨.hbm, 217, rfl⟩
abbrev main_v145 : Ref sig .tc := ⟨.hbm, 218, rfl⟩
abbrev main_v146 : Ref sig .tc := ⟨.hbm, 219, rfl⟩
abbrev main_cst_23 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_cst_24 : Ref sig .tc := ⟨.hbm, 228, rfl⟩
abbrev main_v154 : Ref sig .tc := ⟨.hbm, 229, rfl⟩
abbrev main_cst_25 : Ref sig .tc := ⟨.hbm, 230, rfl⟩
abbrev main_v155 : Ref sig .tc := ⟨.hbm, 231, rfl⟩
abbrev main_cst_26 : Ref sig .tc := ⟨.hbm, 232, rfl⟩
abbrev main_v156 : Ref sig .tc := ⟨.hbm, 233, rfl⟩
abbrev main_v157 : Ref sig .tc := ⟨.hbm, 234, rfl⟩
abbrev main_cst_27 : Ref sig .tc := ⟨.hbm, 235, rfl⟩
abbrev main_v158 : Ref sig .tc := ⟨.hbm, 236, rfl⟩
abbrev main_cst_28 : Ref sig .tc := ⟨.hbm, 237, rfl⟩
abbrev main_v159 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x3x262144_S1x3x262144_0_0_0 : ∀ a, (![0, 0, 0] : Fin 3 → Nat) a + S1x3x262144.size a ≤ S1x3x262144.size a
  h_S1x3x262144 : 0 < S1x3x262144.numel
  shapeCasts_S1x3x262144_S3x262144 : S1x3x262144.ShapeCasts S3x262144
  bitsLt_bf16_f32 : FTy.bits .bf16 < FTy.bits .f32
  inb_S1x3x3_S1x3x3_0_0_0 : ∀ a, (![0, 0, 0] : Fin 3 → Nat) a + S1x3x3.size a ≤ S1x3x3.size a
  h_S1x3x3 : 0 < S1x3x3.numel
  shapeCasts_S1x3x3_S3x3 : S1x3x3.ShapeCasts S3x3
  shapeCasts_S3x3_S1x3x3 : S3x3.ShapeCasts S1x3x3
  reducesTo_S32x4_S32_d1 : S32x4.ReducesTo [1] S32
  h_S_ : 0 < S_.numel
  bcast_S32_S32x1_0 : S32.BroadcastsInDim S32x1 (![0] : Fin 1 → Fin S32x1.rank)
  bcast_S32x1_S32x4_0_1 : S32x1.BroadcastsInDim S32x4 (![0, 1] : Fin 2 → Fin S32x4.rank)
  slices_S32x4_S32x1_0_0 : S32x4.Slices ![0, 0] S32x1
  shapeCasts_S32x1_S32 : S32x1.ShapeCasts S32
  slices_S32x4_S32x1_0_1 : S32x4.Slices ![0, 1] S32x1
  slices_S32x4_S32x1_0_2 : S32x4.Slices ![0, 2] S32x1
  slices_S32x4_S32x1_0_3 : S32x4.Slices ![0, 3] S32x1
  bcast_S_S32 : S_.BroadcastsInDim S32 (![] : Fin 0 → Fin S32.rank)
  concatenates_S32x1_S32x1_S32x1_S32x3_d1 : Shape.Concatenates [S32x1, S32x1, S32x1] S32x3 1
  bcast_S32x3_S32x1x3_0_2 : S32x3.BroadcastsInDim S32x1x3 (![0, 2] : Fin 2 → Fin S32x1x3.rank)
  concatenates_S32x1x3_S32x1x3_S32x1x3_S32x3x3_d1 : Shape.Concatenates [S32x1x3, S32x1x3, S32x1x3] S32x3x3 1
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  bcast_S32x3_S32x3x1_0_1 : S32x3.BroadcastsInDim S32x3x1 (![0, 1] : Fin 2 → Fin S32x3x1.rank)
  bcast_S_S32x3x3 : S_.BroadcastsInDim S32x3x3 (![] : Fin 0 → Fin S32x3x3.rank)
  bcast_S32x3x1_S32x3x3_0_1_2 : S32x3x1.BroadcastsInDim S32x3x3 (![0, 1, 2] : Fin 3 → Fin S32x3x3.rank)
  bcast_S32x1x3_S32x3x3_0_1_2 : S32x1x3.BroadcastsInDim S32x3x3 (![0, 1, 2] : Fin 3 → Fin S32x3x3.rank)
  reducesTo_S32x3x3_S32x3_d1 : S32x3x3.ReducesTo [1] S32x3
  reducesTo_S32x3_S32_d1 : S32x3.ReducesTo [1] S32
  reducesTo_S32_S_d0 : S32.ReducesTo [0] S_
  dot_S3x262144_S3x262144_S3x3_1_1_0_0_n_n_wf : DotDims.WF S3x262144 S3x262144 S3x3 [1] [1] [0] [0] [] []
  dot_S32x3x3_S32x3x3_S32x3x3_2_1_1_2_0_0_wf : DotDims.WF S32x3x3 S32x3x3 S32x3x3 [2] [1] [1] [2] [0] [0]
  dot_S32x3x3_S32x3x3_S32x3x3_2_2_1_1_0_0_wf : DotDims.WF S32x3x3 S32x3x3 S32x3x3 [2] [2] [1] [1] [0] [0]
  gather_S32x3x3_S3x2_S32x3_0_12_n_n_12_1_3211_wf : GatherDims.WF S32x3x3 S3x2 S32x3 [0] [1, 2] [] [1, 2] [] 1 ![32, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x262144.size a ≤ S32x3x262144.size a
  hwx0_0 : ∀ i : grid0.Coords, EltTy.bits .f32 = 32 ∨ (Rect.block (s := S32x3x262144) S1x3x262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x3.size a ≤ S32x3x3.size a
  hwx0_1 : ∀ i : grid0.Coords, EltTy.bits .f32 = 32 ∨ (Rect.block (s := S32x3x3) S1x3x3.size (cc0_transform_1 i) (hinb0_1 i)).WholeWords (EltTy.packing .f32)

variable [Facts₀]

def dot_S3x262144_S3x262144_S3x3_1_1_0_0_n_n : DotDims S3x262144 S3x262144 S3x3 where
  lhsContracting := [1]
  rhsContracting := [1]
  lhsNonContracting := [0]
  rhsNonContracting := [0]
  lhsBatch := []
  rhsBatch := []
  wf := dot_S3x262144_S3x262144_S3x3_1_1_0_0_n_n_wf
def dot_S32x3x3_S32x3x3_S32x3x3_2_1_1_2_0_0 : DotDims S32x3x3 S32x3x3 S32x3x3 where
  lhsContracting := [2]
  rhsContracting := [1]
  lhsNonContracting := [1]
  rhsNonContracting := [2]
  lhsBatch := [0]
  rhsBatch := [0]
  wf := dot_S32x3x3_S32x3x3_S32x3x3_2_1_1_2_0_0_wf
def dot_S32x3x3_S32x3x3_S32x3x3_2_2_1_1_0_0 : DotDims S32x3x3 S32x3x3 S32x3x3 where
  lhsContracting := [2]
  rhsContracting := [2]
  lhsNonContracting := [1]
  rhsNonContracting := [1]
  lhsBatch := [0]
  rhsBatch := [0]
  wf := dot_S32x3x3_S32x3x3_S32x3x3_2_2_1_1_0_0_wf
def gather_S32x3x3_S3x2_S32x3_0_12_n_n_12_1_3211 : GatherDims S32x3x3 S3x2 S32x3 where
  offsetDims := [0]
  collapsedSliceDims := [1, 2]
  operandBatchingDims := []
  startIndicesBatchingDims := []
  startIndexMap := [1, 2]
  indexVectorDim := 1
  sliceSizes := ![32, 1, 1]
  wf := gather_S32x3x3_S3x2_S32x3_0_12_n_n_12_1_3211_wf

abbrev win0_0 : Pipeline.Window sig grid0 :=
  Pipeline.Window.ofSpec (Memref.whole main_arg2) S1x3x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x4 : Shape := ⟨2, ![32, 4]⟩
abbrev S32x3x262144 : Shape := ⟨3, ![32, 3, 262144]⟩
abbrev S_ : Shape := ⟨0, ![]⟩
abbrev S32 : Shape := ⟨1, ![32]⟩
abbrev S32x1 : Shape := ⟨2, ![32, 1]⟩
abbrev S32x3 : Shape := ⟨2, ![32, 3]⟩
abbrev S32x1x3 : Shape := ⟨3, ![32, 1, 3]⟩
abbrev S32x3x3 : Shape := ⟨3, ![32, 3, 3]⟩
abbrev S32x1x3x262144 : Shape := ⟨4, ![32, 1, 3, 262144]⟩
abbrev S32x3x1x262144 : Shape := ⟨4, ![32, 3, 1, 262144]⟩
abbrev S32x3x3x262144 : Shape := ⟨4, ![32, 3, 3, 262144]⟩

abbrev nBuf : Space → Nat
  | .hbm => 194
  | .vmem => 0
  | .smem => 0
  | _ => 0

abbrev hbmTy0_0 (i : Nat) : BufTy := match i % 128 with
  | 0 => ⟨S32x4, .f32⟩
  | 1 => ⟨S32x4, .f32⟩
  | 2 => ⟨S32x3x262144, .f32⟩
  | 3 => ⟨S32x4, .f32⟩
  | 4 => ⟨S_, .f32⟩
  | 5 => ⟨S32, .f32⟩
  | 6 => ⟨S32x1, .f32⟩
  | 7 => ⟨S32x1, .f32⟩
  | 8 => ⟨S32x4, .f32⟩
  | 9 => ⟨S32x4, .f32⟩
  | 10 => ⟨S32x1, .f32⟩
  | 11 => ⟨S32, .f32⟩
  | 12 => ⟨S32x1, .f32⟩
  | 13 => ⟨S32, .f32⟩
  | 14 => ⟨S32x1, .f32⟩
  | 15 => ⟨S32, .f32⟩
  | 16 => ⟨S32x1, .f32⟩
  | 17 => ⟨S32, .f32⟩
  | 18 => ⟨S32, .f32⟩
  | 19 => ⟨S32, .f32⟩
  | 20 => ⟨S32, .f32⟩
  | 21 => ⟨S32, .f32⟩
  | 22 => ⟨S32, .f32⟩
  | 23 => ⟨S32, .f32⟩
  | 24 => ⟨S32, .f32⟩
  | 25 => ⟨S32, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S32, .f32⟩
  | 35 => ⟨S_, .f32⟩
  | 36 => ⟨S32, .f32⟩
  | 37 => ⟨S32, .f32⟩
  | 38 => ⟨S32, .f32⟩
  | 39 => ⟨S_, .f32⟩
  | 40 => ⟨S32, .f32⟩
  | 41 => ⟨S32, .f32⟩
  | 42 => ⟨S32x1, .f32⟩
  | 43 => ⟨S32x1, .f32⟩
  | 44 => ⟨S32x1, .f32⟩
  | 45 => ⟨S32x3, .f32⟩
  | 46 => ⟨S32, .f32⟩
  | 47 => ⟨S_, .f32⟩
  | 48 => ⟨S32, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S32, .f32⟩
  | 58 => ⟨S_, .f32⟩
  | 59 => ⟨S32, .f32⟩
  | 60 => ⟨S32, .f32⟩
  | 61 => ⟨S32x1, .f32⟩
  | 62 => ⟨S32x1, .f32⟩
  | 63 => ⟨S32x1, .f32⟩
  | 64 => ⟨S32x3, .f32⟩
  | 65 => ⟨S32, .f32⟩
  | 66 => ⟨S_, .f32⟩
  | 67 => ⟨S32, .f32⟩
  | 68 => ⟨S32, .f32⟩
  | 69 => ⟨S32, .f32⟩
  | 70 => ⟨S_, .f32⟩
  | 71 => ⟨S32, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S32x1, .f32⟩
  | 81 => ⟨S32x1, .f32⟩
  | 82 => ⟨S32x1, .f32⟩
  | 83 => ⟨S32x3, .f32⟩
  | 84 => ⟨S32x1x3, .f32⟩
  | 85 => ⟨S32x1x3, .f32⟩
  | 86 => ⟨S32x1x3, .f32⟩
  | 87 => ⟨S32x3x3, .f32⟩
  | 88 => ⟨S32x4, .f32⟩
  | 89 => ⟨S_, .f32⟩
  | 90 => ⟨S32, .f32⟩
  | 91 => ⟨S32x1, .f32⟩
  | 92 => ⟨S32x1, .f32⟩
  | 93 => ⟨S32x4, .f32⟩
  | 94 => ⟨S32x4, .f32⟩
  | 95 => ⟨S32x1, .f32⟩
  | 96 => ⟨S32, .f32⟩
  | 97 => ⟨S32x1, .f32⟩
  | 98 => ⟨S32, .f32⟩
  | 99 => ⟨S32x1, .f32⟩
  | 100 => ⟨S32, .f32⟩
  | 101 => ⟨S32x1, .f32⟩
  | 102 => ⟨S32, .f32⟩
  | 103 => ⟨S32, .f32⟩
  | 104 => ⟨S32, .f32⟩
  | 105 => ⟨S32, .f32⟩
  | 106 => ⟨S32, .f32⟩
  | 107 => ⟨S32, .f32⟩
  | 108 => ⟨S32, .f32⟩
  | 109 => ⟨S32, .f32⟩
  | 110 => ⟨S32, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S32, .f32⟩
  | 120 => ⟨S_, .f32⟩
  | 121 => ⟨S32, .f32⟩
  | 122 => ⟨S32, .f32⟩
  | 123 => ⟨S32, .f32⟩
  | 124 => ⟨S_, .f32⟩
  | 125 => ⟨S32, .f32⟩
  | 126 => ⟨S32, .f32⟩
  | 127 => ⟨S32x1, .f32⟩
  | _ => ⟨S32x4, .f32⟩

abbrev hbmTy0_1 (i : Nat) : BufTy := match i % 128 with
  | 0 => ⟨S32x1, .f32⟩
  | 1 => ⟨S32x1, .f32⟩
  | 2 => ⟨S32x3, .f32⟩
  | 3 => ⟨S32, .f32⟩
  | 4 => ⟨S_, .f32⟩
  | 5 => ⟨S32, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S_, .f32⟩
  | 16 => ⟨S32, .f32⟩
  | 17 => ⟨S32, .f32⟩
  | 18 => ⟨S32x1, .f32⟩
  | 19 => ⟨S32x1, .f32⟩
  | 20 => ⟨S32x1, .f32⟩
  | 21 => ⟨S32x3, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S32x1, .f32⟩
  | 38 => ⟨S32x1, .f32⟩
  | 39 => ⟨S32x1, .f32⟩
  | 40 => ⟨S32x3, .f32⟩
  | 41 => ⟨S32x1x3, .f32⟩
  | 42 => ⟨S32x1x3, .f32⟩
  | 43 => ⟨S32x1x3, .f32⟩
  | 44 => ⟨S32x3x3, .f32⟩
  | 45 => ⟨S32x3x262144, .f32⟩
  | 46 => ⟨S32x3x262144, .f32⟩
  | 47 => ⟨S32x1x3x262144, .f32⟩
  | 48 => ⟨S32x3x1x262144, .f32⟩
  | 49 => ⟨S32x3x3x262144, .f32⟩
  | 50 => ⟨S32x3x3x262144, .f32⟩
  | 51 => ⟨S32x3x3x262144, .f32⟩
  | 52 => ⟨S32x3x3x262144, .f32⟩
  | 53 => ⟨S_, .f32⟩
  | 54 => ⟨S32x3x3, .f32⟩
  | 55 => ⟨S_, .f32⟩
  | 56 => ⟨S32x3, .f32⟩
  | 57 => ⟨S_, .f32⟩
  | 58 => ⟨S32, .f32⟩
  | 59 => ⟨S_, .f32⟩
  | 60 => ⟨S32, .f32⟩
  | 61 => ⟨S32, .f32⟩
  | 62 => ⟨S_, .f32⟩
  | 63 => ⟨S_, .f32⟩
  | 64 => ⟨S_, .f32⟩
  | 65 => ⟨S_, .f32⟩
  | _ => ⟨S32x4, .f32⟩

abbrev hbmTy (i : Nat) : BufTy := match i / 128 with
  | 0 => hbmTy0_0 i
  | 1 => hbmTy0_1 i
  | _ => ⟨S32x4, .f32⟩

abbrev bufTy : (tb : Table) → Fin (tcTables nBuf tb) → BufTy
  | .hbm, ⟨i, _⟩ => hbmTy i
  | _, _ => ⟨S32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_call1_v0 : Ref sig .tc := ⟨.hbm, 88, rfl⟩
abbrev main_call1_cst : Ref sig .tc := ⟨.hbm, 89, rfl⟩
abbrev main_call1_v1 : Ref sig .tc := ⟨.hbm, 90, rfl⟩
abbrev main_call1_v2 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_11 : Ref sig .tc := ⟨.hbm, 113, rfl⟩
abbrev main_v90 : Ref sig .tc := ⟨.hbm, 114, rfl⟩
abbrev main_v91 : Ref sig .tc := ⟨.hbm, 115, rfl⟩
abbrev main_cst_12 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_13 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_14 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_15 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_16 : Ref sig .tc := ⟨.hbm, 136, rfl⟩
abbrev main_v108 : Ref sig .tc := ⟨.hbm, 137, rfl⟩
abbrev main_v109 : Ref sig .tc := ⟨.hbm, 138, rfl⟩
abbrev main_cst_17 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_18 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_19 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_20 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_21 : Ref sig .tc := ⟨.hbm, 159, rfl⟩
abbrev main_v126 : Ref sig .tc := ⟨.hbm, 160, rfl⟩
abbrev main_v127 : Ref sig .tc := ⟨.hbm, 161, rfl⟩
abbrev main_cst_22 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_23 : Ref sig .tc := ⟨.hbm, 181, rfl⟩
abbrev main_v146 : Ref sig .tc := ⟨.hbm, 182, rfl⟩
abbrev main_cst_24 : Ref sig .tc := ⟨.hbm, 183, rfl⟩
abbrev main_v147 : Ref sig .tc := ⟨.hbm, 184, rfl⟩
abbrev main_cst_25 : Ref sig .tc := ⟨.hbm, 185, rfl⟩
abbrev main_v148 : Ref sig .tc := ⟨.hbm, 186, rfl⟩
abbrev main_cst_26 : Ref sig .tc := ⟨.hbm, 187, rfl⟩
abbrev main_v149 : Ref sig .tc := ⟨.hbm, 188, rfl⟩
abbrev main_v150 : Ref sig .tc := ⟨.hbm, 189, rfl⟩
abbrev main_cst_27 : Ref sig .tc := ⟨.hbm, 190, rfl⟩
abbrev main_v151 : Ref sig .tc := ⟨.hbm, 191, rfl⟩
abbrev main_cst_28 : Ref sig .tc := ⟨.hbm, 192, rfl⟩
abbrev main_v152 : Ref sig .tc := ⟨.hbm, 193, rfl⟩

abbrev nD : Nat := 1
abbrev τ : Topo := Topo.v7x

variable {F : FTy → Type} [FloatOps F]

class Facts₀ : Prop where
  reducesTo_S32x4_S32_d1 : S32x4.ReducesTo [1] S32
  h_S_ : 0 < S_.numel
  bcast_S32_S32x1_0 : S32.BroadcastsInDim S32x1 (![0] : Fin 1 → Fin S32x1.rank)
  bcast_S32x1_S32x4_0_1 : S32x1.BroadcastsInDim S32x4 (![0, 1] : Fin 2 → Fin S32x4.rank)
  slices_S32x4_S32x1_0_0 : S32x4.Slices ![0, 0] S32x1
  shapeCasts_S32x1_S32 : S32x1.ShapeCasts S32
  slices_S32x4_S32x1_0_1 : S32x4.Slices ![0, 1] S32x1
  slices_S32x4_S32x1_0_2 : S32x4.Slices ![0, 2] S32x1
  slices_S32x4_S32x1_0_3 : S32x4.Slices ![0, 3] S32x1
  bcast_S_S32 : S_.BroadcastsInDim S32 (![] : Fin 0 → Fin S32.rank)
  concatenates_S32x1_S32x1_S32x1_S32x3_d1 : Shape.Concatenates [S32x1, S32x1, S32x1] S32x3 1
  bcast_S32x3_S32x1x3_0_2 : S32x3.BroadcastsInDim S32x1x3 (![0, 2] : Fin 2 → Fin S32x1x3.rank)
  concatenates_S32x1x3_S32x1x3_S32x1x3_S32x3x3_d1 : Shape.Concatenates [S32x1x3, S32x1x3, S32x1x3] S32x3x3 1
  bcast_S32x3x262144_S32x1x3x262144_0_2_3 : S32x3x262144.BroadcastsInDim S32x1x3x262144 (![0, 2, 3] : Fin 3 → Fin S32x1x3x262144.rank)
  bcast_S32x3x262144_S32x3x1x262144_0_1_3 : S32x3x262144.BroadcastsInDim S32x3x1x262144 (![0, 1, 3] : Fin 3 → Fin S32x3x1x262144.rank)
  bcast_S32x1x3x262144_S32x3x3x262144_0_1_2_3 : S32x1x3x262144.BroadcastsInDim S32x3x3x262144 (![0, 1, 2, 3] : Fin 4 → Fin S32x3x3x262144.rank)
  bcast_S32x3x1x262144_S32x3x3x262144_0_1_2_3 : S32x3x1x262144.BroadcastsInDim S32x3x3x262144 (![0, 1, 2, 3] : Fin 4 → Fin S32x3x3x262144.rank)
  reducesTo_S32x3x3x262144_S32x3x3_d3 : S32x3x3x262144.ReducesTo [3] S32x3x3
  reducesTo_S32x3x3_S32x3_d1 : S32x3x3.ReducesTo [1] S32x3
  reducesTo_S32x3_S32_d1 : S32x3.ReducesTo [1] S32
  reducesTo_S32_S_d0 : S32.ReducesTo [0] S_
  dot_S32x3x3_S32x3x262144_S32x3x262144_2_1_1_2_0_0_wf : DotDims.WF S32x3x3 S32x3x262144 S32x3x262144 [2] [1] [1] [2] [0] [0]

variable [Facts₀]

def dot_S32x3x3_S32x3x262144_S32x3x262144_2_1_1_2_0_0 : DotDims S32x3x3 S32x3x262144 S32x3x262144 where
  lhsContracting := [2]
  rhsContracting := [1]
  lhsNonContracting := [1]
  rhsNonContracting := [2]
  lhsBatch := [0]
  rhsBatch := [0]
  wf := dot_S32x3x3_S32x3x262144_S32x3x262144_2_1_1_2_0_0_wf

class Facts : Prop extends Facts₀ where

variable [Facts]
-- ==== Proof.KBasic.lean ====
import proofs.«141143_j824633721416_1_alg».proof.Proof.Gen.Kernel.Launch

noncomputable section

namespace Cert.Kernel.Hand

open Cert.Kernel Cert.Kernel.Gen Idealize.ShloMosaic Idealize.ShloMosaic.TcCoe Idealize.SL.Sem

variable {F : FTy → Type} [FloatOps F]

/-- The host operations after the region, stretch by stretch, in program order. -/
abbrev tailOps : List (List (HloOp τ sig (Elt F))) :=
  [hostOps1, hostOps1_1, hostOps1_2, hostOps1_3, hostOps1_4, hostOps1_5, hostOps1_6]

end Cert.Kernel.Hand

end
-- ==== Proof.KFrameTail.lean ====
import proofs.«141143_j824633721416_1_alg».proof.Proof.KBasic
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s TensorCore buffer contents when the region is entered, as a valuation: the program starts with the
    region, so these are the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-! ## The operations after the region, stretch by stretch -/

/-- An operation writes none of the three arguments nor the array the region writes. -/
abbrev Keeps (op : HloOp τ sig (Elt F)) : Prop :=
  Proc.devRef .tc main_arg0 ∉ op.writes ∧ Proc.devRef .tc main_arg1 ∉ op.writes
    ∧ Proc.devRef .tc main_arg2 ∉ op.writes ∧ Proc.devRef .tc main_v0 ∉ op.writes

set_option maxHeartbeats 4000000 in
theorem hostOps1_fresh : (hostOps1 : List (HloOp τ sig (Elt F))).Forall fun op => op.fresh = ∅ := by
  simp only [List.Forall]; repeat' constructor
set_option maxHeartbeats 4000000 in
theorem hostOps1_keeps : (hostOps1 : List (HloOp τ sig (Elt F))).Forall Keeps := by
  simp only [hostOps1, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_1_fresh : (hostOps1_1 : List (HloOp τ sig (Elt F))).Forall fun op => op.fresh = ∅ := by
  simp only [List.Forall]; repeat' constructor
set_option maxHeartbeats 4000000 in
theorem hostOps1_1_keeps : (hostOps1_1 : List (HloOp τ sig (Elt F))).Forall Keeps := by
  simp only [hostOps1_1, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_2_fresh : (hostOps1_2 : List (HloOp τ sig (Elt F))).Forall fun op => op.fresh = ∅ := by
  simp only [List.Forall]; repeat' constructor
set_option maxHeartbeats 4000000 in
theorem hostOps1_2_keeps : (hostOps1_2 : List (HloOp τ sig (Elt F))).Forall Keeps := by
  simp only [hostOps1_2, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_3_fresh : (hostOps1_3 : List (HloOp τ sig (Elt F))).Forall fun op => op.fresh = ∅ := by
  simp only [List.Forall]; repeat' constructor
set_option maxHeartbeats 4000000 in
theorem hostOps1_3_keeps : (hostOps1_3 : List (HloOp τ sig (Elt F))).Forall Keeps := by
  simp only [hostOps1_3, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_4_fresh : (hostOps1_4 : List (HloOp τ sig (Elt F))).Forall fun op => op.fresh = ∅ := by
  simp only [List.Forall]; repeat' constructor
set_option maxHeartbeats 4000000 in
theorem hostOps1_4_keeps : (hostOps1_4 : List (HloOp τ sig (Elt F))).Forall Keeps := by
  simp only [hostOps1_4, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_5_fresh : (hostOps1_5 : List (HloOp τ sig (Elt F))).Forall fun op => op.fresh = ∅ := by
  simp only [List.Forall]; repeat' constructor
set_option maxHeartbeats 4000000 in
theorem hostOps1_5_keeps : (hostOps1_5 : List (HloOp τ sig (Elt F))).Forall Keeps := by
  simp only [hostOps1_5, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_6_fresh : (hostOps1_6 : List (HloOp τ sig (Elt F))).Forall fun op => op.fresh = ∅ := by
  simp only [List.Forall]; repeat' constructor
set_option maxHeartbeats 4000000 in
theorem hostOps1_6_keeps : (hostOps1_6 : List (HloOp τ sig (Elt F))).Forall Keeps := by
  simp only [hostOps1_6, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- The lines after the region touch the pipeline's arrays and the bypassing buffers only: each operation's buffers are
    unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- Each writes none of the arguments nor the region's output array. -/
theorem sfx_Keeps : ∀ ops ∈ (tailOps : List (List (HloOp τ sig (Elt F)))), ∀ op ∈ ops, Keeps op := by
  intro ops hops op hop
  simp only [tailOps, List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-- And so write no array of the pipeline (window 0 stages `main_arg2`, window 1 `main_v0`). -/
theorem sfx_keeps : ∀ ops ∈ (tailOps : List (List (HloOp τ sig (Elt F)))), ∀ op ∈ ops,
    ∀ w, Proc.devRef .tc (Pipeline.arrRef spec0 w) ∉ op.writes := by
  intro ops hops op hop w
  have h := sfx_Keeps ops hops op hop
  fin_cases w
  · exact h.2.2.1
  · exact h.2.2.2

/-- No operation of the flattened tail writes an argument. -/
theorem tail_keeps : ∀ op ∈ (tailOps : List (List (HloOp τ sig (Elt F)))).flatten, Keeps op := by
  intro op hop
  obtain ⟨ops, hops, hop'⟩ := List.mem_flatten.mp hop
  exact sfx_Keeps ops hops op hop'

/-! ## The arguments as the region finds them and as the program leaves them -/

/-- The region finds `main_arg2` as launched (nothing runs before it). -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => (tail_keeps op hop).1),
    Pipeline.withArrays_of_ne _ c (V0 m c) _ main_arg0 (by exact (by decide : ∀ w, Pipeline.arrRef spec0 w ≠ main_arg0))]
  exact V_main_arg0 m c

/-- The same of `main_arg1`. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => (tail_keeps op hop).2.1),
    Pipeline.withArrays_of_ne _ c (V0 m c) _ main_arg1 (by exact (by decide : ∀ w, Pipeline.arrRef spec0 w ≠ main_arg1))]
  exact V_main_arg1 m c

/-- `main_arg2` is window 0's array, an input the pipeline only reads: after the region it holds the proof data's array,
    which is the launch contents (`hA`), and no later operation writes it. -/
theorem W_main_arg2 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => (tail_keeps op hop).2.2.1)]
  exact (Pipeline.withArrays_arr (cfgs 0).spec launch0.win.arr_inj c (V0 m c) _ 0).trans
    (((dats 0 c).arrAt_in 0 rfl _).trans ((hA c 0).trans (V_main_arg2 m c)))

end Cert.Kernel.Hand

end
-- ==== Proof.KFrame.lean ====
import proofs.«141143_j824633721416_1_alg».proof.Proof.KFrameTail
import proofs.«141143_j824633721416_1_alg».proof.Proof.Gen.Kernel.Skeleton
import proofs.«141143_j824633721416_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the input block's extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- @main is the region continued by the seven stretches of host operations: it reduces to the region CONTINUED BY
    those lines, the buffers at the launch contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [] tailOps (by simp only [List.Forall])
    (by simp only [List.Forall]) main_chain

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the window is uncut and
    never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three arguments at a final state of the frame run's post, for any proof data whose arrays are the region-entry
    contents (`hA`): `main_arg2` is the staged input (the post's first clause, an input's array being never written
    back), `main_arg0` and `main_arg1` bypass the region (the post's second clause) and no later line writes them. -/
theorem post_kept_of (dats : (p : Fin 1) → (c : Dev nD) → Dat τ (Elt F) Unit ℕ (UR sig nD τ) ℕ (cfgs p) c)
    (hA : ∀ c w, (dats 0 c).A w = V m c (Pipeline.arrRef spec0 w)) (r : PUnit.{1} × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (W_main_arg0 m dats c),
   ((h c).2 main_arg1 (Pipeline.mem_restRefs_of main_arg1 (by decide) (by decide))).trans (W_main_arg1 m dats c),
   ((h c).1 0).trans (((dats 0 c).arrAt_in 0 rfl _).trans ((hA c 0).trans (V_main_arg2 m c)))⟩

/-- THE FRAME from a frame run: a run to the frame run's post, read at the three argument arrays, is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => post_kept_of m dats hA r h c) h

/-! ## The body's accesses -/

/-- The whole input block, and the whole output block. -/
abbrev r0_0 : Rect S1x3x262144 := Rect.unit (s := S1x3x262144) ![0, 0, 0] S1x3x262144.size inb_S1x3x262144_S1x3x262144_0_0_0
abbrev r0_1 : Rect S1x3x3 := Rect.unit (s := S1x3x3) ![0, 0, 0] S1x3x3.size inb_S1x3x3_S1x3x3_0_0_0

/-! ## What the body leaves in the output window's buffer -/

/-- Window 1's staging buffer after the body, from the input window's block: its one store, of the Gram matrix
    of the loaded block (`k0_pay1`), over the whole buffer. -/
def out0_1 (x0 : Vec F S1x3x262144 .f32) : Vec F S1x3x3 .f32 :=
  View.canon [⟨r0_1, k0_pay1 (View.ld x0 r0_0)⟩]

/-- The store tiles the buffer, so it covers it. -/
theorem cover0_1 (p0 : Vec F S1x3x3 .f32) (y : S1x3x3.Idx) :
    ∃ pc ∈ ([⟨r0_1, p0⟩] : List (View.Piece (Elt F) S1x3x3 .f32)), y ∈ pc.1.set :=
  View.cover_of_tiled [⟨r0_1, p0⟩] S1x3x3.size (by rfl) y

/-! ## The body's triple -/

set_option maxHeartbeats 1000000 in
/-- The kernel body on whole staging memrefs, the input's at read contents `x0` and the output's at anything, runs to
    the continuation holding the input's as it was and the output's at `out0_1 x0`: the body loads the input block,
    loads the output buffer (a value it never uses), and stores the payload over the whole output buffer. -/
theorem sound_kernel (c : Dev nD) (E : Set ℕ) (i : grid0.Coords) (arg1 : Memref sig .tc .vmem S1x3x262144 .f32) (harg1 : arg1.IsWhole) (arg2 : Memref sig .tc .vmem S1x3x3 .f32) (harg2 : arg2.IsWhole)
    (x0 : Vec F S1x3x262144 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__gram_kernel i arg1 harg1 arg2 harg2) K := by
  simp only [cc0__gram_kernel_eq_skeleton]; unfold cc0__gram_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the one pipeline on core `c`: the arrays as the region finds them (`V`); after the body at
    point `t` the input's buffer at its block and the output's at `out0_1` of the input block; the invariant holds the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block (`before0_0`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The three arguments at a final state of `run_main`'s post. -/
theorem post_kept (r : PUnit.{1} × MemSt nD τ sig (Elt F)) (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  post_kept_of m (dats m) (A_eq m) r h c

/-- THE FRAME: the program runs and its three argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => post_kept m r h c) (run_main m ρ)

end Cert.Kernel.Hand

end
-- ==== Proof.KIBasic.lean ====
import proofs.«141143_j824633721416_1_alg».proof.Proof.Gen.KernelIdeal.Launch

noncomputable section

namespace Cert.KernelIdeal.Hand

open Cert.KernelIdeal Cert.KernelIdeal.Gen Idealize.ShloMosaic Idealize.ShloMosaic.TcCoe Idealize.SL.Sem

variable {F : FTy → Type} [FloatOps F]

/-- The host operations after the region, stretch by stretch, in program order. -/
abbrev tailOps : List (List (HloOp τ sig (Elt F))) :=
  [hostOps1, hostOps1_1, hostOps1_2, hostOps1_3, hostOps1_4, hostOps1_5, hostOps1_6]

end Cert.KernelIdeal.Hand

end
-- ==== Proof.KIFrameTail.lean ====
import proofs.«141143_j824633721416_1_alg».proof.Proof.KIBasic
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when the region is entered -/

/-- Core `c`'s TensorCore buffer contents when the region is entered, as a valuation: the program starts with the
    region, so these are the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-! ## The operations after the region, stretch by stretch -/

/-- An operation writes none of the three arguments nor the array the region writes. -/
abbrev Keeps (op : HloOp τ sig (Elt F)) : Prop :=
  Proc.devRef .tc main_arg0 ∉ op.writes ∧ Proc.devRef .tc main_arg1 ∉ op.writes
    ∧ Proc.devRef .tc main_arg2 ∉ op.writes ∧ Proc.devRef .tc main_v0 ∉ op.writes

set_option maxHeartbeats 4000000 in
theorem hostOps1_fresh : (hostOps1 : List (HloOp τ sig (Elt F))).Forall fun op => op.fresh = ∅ := by
  simp only [List.Forall]; repeat' constructor
set_option maxHeartbeats 4000000 in
theorem hostOps1_keeps : (hostOps1 : List (HloOp τ sig (Elt F))).Forall Keeps := by
  simp only [hostOps1, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_1_fresh : (hostOps1_1 : List (HloOp τ sig (Elt F))).Forall fun op => op.fresh = ∅ := by
  simp only [List.Forall]; repeat' constructor
set_option maxHeartbeats 4000000 in
theorem hostOps1_1_keeps : (hostOps1_1 : List (HloOp τ sig (Elt F))).Forall Keeps := by
  simp only [hostOps1_1, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_2_fresh : (hostOps1_2 : List (HloOp τ sig (Elt F))).Forall fun op => op.fresh = ∅ := by
  simp only [List.Forall]; repeat' constructor
set_option maxHeartbeats 4000000 in
theorem hostOps1_2_keeps : (hostOps1_2 : List (HloOp τ sig (Elt F))).Forall Keeps := by
  simp only [hostOps1_2, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_3_fresh : (hostOps1_3 : List (HloOp τ sig (Elt F))).Forall fun op => op.fresh = ∅ := by
  simp only [List.Forall]; repeat' constructor
set_option maxHeartbeats 4000000 in
theorem hostOps1_3_keeps : (hostOps1_3 : List (HloOp τ sig (Elt F))).Forall Keeps := by
  simp only [hostOps1_3, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_4_fresh : (hostOps1_4 : List (HloOp τ sig (Elt F))).Forall fun op => op.fresh = ∅ := by
  simp only [List.Forall]; repeat' constructor
set_option maxHeartbeats 4000000 in
theorem hostOps1_4_keeps : (hostOps1_4 : List (HloOp τ sig (Elt F))).Forall Keeps := by
  simp only [hostOps1_4, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_5_fresh : (hostOps1_5 : List (HloOp τ sig (Elt F))).Forall fun op => op.fresh = ∅ := by
  simp only [List.Forall]; repeat' constructor
set_option maxHeartbeats 4000000 in
theorem hostOps1_5_keeps : (hostOps1_5 : List (HloOp τ sig (Elt F))).Forall Keeps := by
  simp only [hostOps1_5, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

set_option maxHeartbeats 4000000 in
theorem hostOps1_6_fresh : (hostOps1_6 : List (HloOp τ sig (Elt F))).Forall fun op => op.fresh = ∅ := by
  simp only [List.Forall]; repeat' constructor
set_option maxHeartbeats 4000000 in
theorem hostOps1_6_keeps : (hostOps1_6 : List (HloOp τ sig (Elt F))).Forall Keeps := by
  simp only [hostOps1_6, Keeps, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- The lines after the region touch the pipeline's arrays and the bypassing buffers only: each operation's buffers are
    unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- Each writes none of the arguments nor the region's output array. -/
theorem sfx_Keeps : ∀ ops ∈ (tailOps : List (List (HloOp τ sig (Elt F)))), ∀ op ∈ ops, Keeps op := by
  intro ops hops op hop
  simp only [tailOps, List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-- And so write no array of the pipeline (window 0 stages `main_arg2`, window 1 `main_v0`). -/
theorem sfx_keeps : ∀ ops ∈ (tailOps : List (List (HloOp τ sig (Elt F)))), ∀ op ∈ ops,
    ∀ w, Proc.devRef .tc (Pipeline.arrRef spec0 w) ∉ op.writes := by
  intro ops hops op hop w
  have h := sfx_Keeps ops hops op hop
  fin_cases w
  · exact h.2.2.1
  · exact h.2.2.2

/-- No operation of the flattened tail writes an argument. -/
theorem tail_keeps : ∀ op ∈ (tailOps : List (List (HloOp τ sig (Elt F)))).flatten, Keeps op := by
  intro op hop
  obtain ⟨ops, hops, hop'⟩ := List.mem_flatten.mp hop
  exact sfx_Keeps ops hops op hop'

/-! ## The arguments as the region finds them and as the program leaves them -/

/-- The region finds `main_arg2` as launched (nothing runs before it). -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => (tail_keeps op hop).1),
    Pipeline.withArrays_of_ne _ c (V0 m c) _ main_arg0 (by exact (by decide : ∀ w, Pipeline.arrRef spec0 w ≠ main_arg0))]
  exact V_main_arg0 m c

/-- The same of `main_arg1`. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => (tail_keeps op hop).2.1),
    Pipeline.withArrays_of_ne _ c (V0 m c) _ main_arg1 (by exact (by decide : ∀ w, Pipeline.arrRef spec0 w ≠ main_arg1))]
  exact V_main_arg1 m c

/-- `main_arg2` is window 0's array, an input the pipeline only reads: after the region it holds the proof data's array,
    which is the launch contents (`hA`), and no later operation writes it. -/
theorem W_main_arg2 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => (tail_keeps op hop).2.2.1)]
  exact (Pipeline.withArrays_arr (cfgs 0).spec launch0.win.arr_inj c (V0 m c) _ 0).trans
    (((dats 0 c).arrAt_in 0 rfl _).trans ((hA c 0).trans (V_main_arg2 m c)))

end Cert.KernelIdeal.Hand

end
-- ==== Proof.KIFrame.lean ====
import proofs.«141143_j824633721416_1_alg».proof.Proof.KIFrameTail
import proofs.«141143_j824633721416_1_alg».proof.Proof.Gen.KernelIdeal.Skeleton
import proofs.«141143_j824633721416_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the input block's extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- @main is the region continued by the seven stretches of host operations: it reduces to the region CONTINUED BY
    those lines, the buffers at the launch contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [] tailOps (by simp only [List.Forall])
    (by simp only [List.Forall]) main_chain

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): the window is uncut and
    never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three arguments at a final state of the frame run's post, for any proof data whose arrays are the region-entry
    contents (`hA`): `main_arg2` is the staged input (the post's first clause, an input's array being never written
    back), `main_arg0` and `main_arg1` bypass the region (the post's second clause) and no later line writes them. -/
theorem post_kept_of (dats : (p : Fin 1) → (c : Dev nD) → Dat τ (Elt F) Unit ℕ (UR sig nD τ) ℕ (cfgs p) c)
    (hA : ∀ c w, (dats 0 c).A w = V m c (Pipeline.arrRef spec0 w)) (r : PUnit.{1} × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (W_main_arg0 m dats c),
   ((h c).2 main_arg1 (Pipeline.mem_restRefs_of main_arg1 (by decide) (by decide))).trans (W_main_arg1 m dats c),
   ((h c).1 0).trans (((dats 0 c).arrAt_in 0 rfl _).trans ((hA c 0).trans (V_main_arg2 m c)))⟩

/-- THE FRAME from a frame run: a run to the frame run's post, read at the three argument arrays, is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => post_kept_of m dats hA r h c) h

/-! ## The body's accesses -/

/-- The whole input block, and the whole output block. -/
abbrev r0_0 : Rect S1x3x262144 := Rect.unit (s := S1x3x262144) ![0, 0, 0] S1x3x262144.size inb_S1x3x262144_S1x3x262144_0_0_0
abbrev r0_1 : Rect S1x3x3 := Rect.unit (s := S1x3x3) ![0, 0, 0] S1x3x3.size inb_S1x3x3_S1x3x3_0_0_0

/-! ## What the body leaves in the output window's buffer -/

/-- Window 1's staging buffer after the body, from the input window's block: its one store, of the Gram matrix
    of the loaded block (`k0_pay1`), over the whole buffer. -/
def out0_1 (x0 : Vec F S1x3x262144 .f32) : Vec F S1x3x3 .f32 :=
  View.canon [⟨r0_1, k0_pay1 (View.ld x0 r0_0)⟩]

/-- The store tiles the buffer, so it covers it. -/
theorem cover0_1 (p0 : Vec F S1x3x3 .f32) (y : S1x3x3.Idx) :
    ∃ pc ∈ ([⟨r0_1, p0⟩] : List (View.Piece (Elt F) S1x3x3 .f32)), y ∈ pc.1.set :=
  View.cover_of_tiled [⟨r0_1, p0⟩] S1x3x3.size (by rfl) y

/-! ## The body's triple -/

set_option maxHeartbeats 1000000 in
/-- The kernel body on whole staging memrefs, the input's at read contents `x0` and the output's at anything, runs to
    the continuation holding the input's as it was and the output's at `out0_1 x0`: the body loads the input block,
    loads the output buffer (a value it never uses), and stores the payload over the whole output buffer. -/
theorem sound_kernel (c : Dev nD) (E : Set ℕ) (i : grid0.Coords) (arg1 : Memref sig .tc .vmem S1x3x262144 .f32) (harg1 : arg1.IsWhole) (arg2 : Memref sig .tc .vmem S1x3x3 .f32) (harg2 : arg2.IsWhole)
    (x0 : Vec F S1x3x262144 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__gram_kernel i arg1 harg1 arg2 harg2) K := by
  simp only [cc0__gram_kernel_eq_skeleton]; unfold cc0__gram_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the one pipeline on core `c`: the arrays as the region finds them (`V`); after the body at
    point `t` the input's buffer at its block and the output's at `out0_1` of the input block; the invariant holds the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block (`before0_0`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The three arguments at a final state of `run_main`'s post. -/
theorem post_kept (r : PUnit.{1} × MemSt nD τ sig (Elt F)) (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  post_kept_of m (dats m) (A_eq m) r h c

/-- THE FRAME: the program runs and its three argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => post_kept m r h c) (run_main m ρ)

end Cert.KernelIdeal.Hand

end
-- ==== Proof.KIPay.lean ====
import proofs.«141143_j824633721416_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx Idealize.SL.Sem

local notation "gramDot" => dot_S3x262144_S3x262144_S3x3_1_1_0_0_n_n

/-! The body contracts the block `x : [1,3,N]` with itself over the long axis: entry `(k,l)` of what it stores is
    `Σ_n x[0,k,n] · x[0,l,n]`. The format change before the product is the identity on extended reals, and the
    accumulator is zero. -/

theorem gram_lhs_0 (i : S3x3.Idx) (q : (gramDot).contr.Idx) : ((gramDot).lhsIdx i q 0).val = (i 0).val := by
  unfold DotDims.lhsIdx
  rw [dif_neg (show ¬(0 : Fin S3x262144.rank) ∈ (gramDot).lhsBatch by decide),
    dif_pos (show (0 : Fin S3x262144.rank) ∈ (gramDot).lhsNonContracting by decide)]
  rfl
theorem gram_lhs_1 (i : S3x3.Idx) (q : (gramDot).contr.Idx) : ((gramDot).lhsIdx i q 1).val = (q ⟨0, by decide⟩).val :=
  (gramDot).lhsIdx_val_of_single rfl i q
theorem gram_rhs_0 (i : S3x3.Idx) (q : (gramDot).contr.Idx) : ((gramDot).rhsIdx i q 0).val = (i 1).val := by
  unfold DotDims.rhsIdx
  rw [dif_neg (show ¬(0 : Fin S3x262144.rank) ∈ (gramDot).rhsBatch by decide),
    dif_pos (show (0 : Fin S3x262144.rank) ∈ (gramDot).rhsNonContracting by decide)]
  rfl
theorem gram_rhs_1 (i : S3x3.Idx) (q : (gramDot).contr.Idx) : ((gramDot).rhsIdx i q 1).val = (q ⟨0, by decide⟩).val :=
  (gramDot).rhsIdx_val_of_single rfl i q

/-- Entry `(k,l)` of the stored block is the sum over the long axis of the products of rows `k` and `l`. -/
theorem pay_apply (v0 : Vec Ideal S1x3x262144 .f32) (u : Fin 1) (k l : Fin 3) :
    k0_pay1 (F := Ideal) v0 (ix3 u k l) = ∑ n : Fin 262144, v0 (ix3 (0 : Fin 1) k n) * v0 (ix3 (0 : Fin 1) l n) := by
  unfold k0_pay1
  refine (shapeCast_ab_1ab_apply _ _ u k l).trans ?_
  refine (Ideal.matmul_constant_zero_apply gramDot none _ _ (ix2 k l)).trans ?_
  rw [← Equiv.sum_comp (contrEquiv1 gramDot 262144 rfl rfl).symm]
  refine Finset.sum_congr rfl fun n _ => ?_
  have hn := contrEquiv1_symm_val gramDot 262144 rfl rfl n
  have el : (gramDot).lhsIdx (ix2 k l) ((contrEquiv1 gramDot 262144 rfl rfl).symm n) = ix2 k n := funext fun a => Fin.ext (by
    match a with
    | ⟨0, _⟩ => exact gram_lhs_0 _ _
    | ⟨1, _⟩ => exact (gram_lhs_1 _ _).trans hn)
  have er : (gramDot).rhsIdx (ix2 k l) ((contrEquiv1 gramDot 262144 rfl rfl).symm n) = ix2 l n := funext fun a => Fin.ext (by
    match a with
    | ⟨0, _⟩ => exact gram_rhs_0 _ _
    | ⟨1, _⟩ => exact (gram_rhs_1 _ _).trans hn)
  rw [el, er]
  show shapeCast S3x262144 v0 _ (ix2 k n) * shapeCast S3x262144 v0 _ (ix2 l n) = _
  rw [shapeCast_1ab_ab_apply, shapeCast_1ab_ab_apply]

end Cert.KernelIdeal.Hand

end
-- ==== Proof.KIGram.lean ====
import proofs.«141143_j824633721416_1_alg».proof.Proof.KIFrame
import proofs.«141143_j824633721416_1_alg».proof.Proof.KIPay
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The array the region leaves: the Gram matrix of each batch's rows

    Grid point `t` handles batch `t`: it reads the block `x[t, :, :]` and writes back the 3×3 block `(t, :, :)` of the
    output. The 32 output blocks tile the output array, so after the region entry `(b,k,l)` of the array is
    `Σ_n x[b,k,n] · x[b,l,n]`. -/

/-- The Gram array of `x : [32,3,N]`. -/
def gram (x : S32x3x262144.Idx → EReal) : S32x3x3.Idx → EReal :=
  fun i => ∑ n : Fin 262144, x (ix3 (i 0) (i 1) n) * x (ix3 (i 0) (i 2) n)

theorem gram_apply (x : S32x3x262144.Idx → EReal) (b : Fin 32) (k l : Fin 3) :
    gram x (ix3 b k l) = ∑ n : Fin 262144, x (ix3 b k n) * x (ix3 b l n) := rfl

theorem hz3 : (![0, 0, 0] : Fin 3 → Nat) = fun _ => 0 := funext fun a => by fin_cases a <;> rfl

/-- The printed index maps over the grid: both windows' block index at point `t` is `(t, 0, 0)`. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem t_lt (t : Fin cfg0.N) : t.val < 32 := lt_of_lt_of_eq t.isLt (N_0 : cfg0.N = 32)

/-- The input block of point `t`, read at `(0,k,n)`, is the points array at `(t,k,n)`. -/
theorem read_in (c : Dev nD) (t : Fin cfg0.N) (k : Fin 3) (n : Fin 262144) :
    iblk m c 0 t (ix3 (0 : Fin 1) k n) = V m c main_arg2 (ix3 (⟨t.val, t_lt t⟩ : Fin 32) k n) := by
  obtain ⟨e0, e1, e2, -, -, -⟩ := idx_facts t
  show V m c main_arg2 (((cfg0.win 0).blk t).view.emb (ix3 (0 : Fin 1) k n)) = _
  refine congrArg _ (funext fun a => Fin.ext ?_)
  match a with
  | ⟨0, _⟩ => show win0_0.index t (0 : Fin 3) * 1 + 1 * 0 = t.val; omega
  | ⟨1, _⟩ => show win0_0.index t (1 : Fin 3) * 3 + 1 * k.val = k.val; omega
  | ⟨2, _⟩ => show win0_0.index t (2 : Fin 3) * 262144 + 1 * n.val = n.val; omega

/-- Any array read through the output block of point `t` at `(u,k,l)` is the array at `(t,k,l)`. -/
theorem read_out (t : Fin cfg0.N) (Γ : S32x3x3.Idx → EReal) (u : Fin 1) (k l : Fin 3) :
    ((cfg0.win 1).blk t).view.read (Elt Ideal) Γ (ix3 u k l) = Γ (ix3 (⟨t.val, t_lt t⟩ : Fin 32) k l) := by
  obtain ⟨-, -, -, e3, e4, e5⟩ := idx_facts t
  show Γ (((cfg0.win 1).blk t).view.emb (ix3 u k l)) = _
  refine congrArg Γ (funext fun a => Fin.ext ?_)
  have hu : u.val = 0 := by omega
  match a with
  | ⟨0, _⟩ => show win0_1.index t (0 : Fin 3) * 1 + 1 * u.val = t.val; omega
  | ⟨1, _⟩ => show win0_1.index t (1 : Fin 3) * 3 + 1 * k.val = k.val; omega
  | ⟨2, _⟩ => show win0_1.index t (2 : Fin 3) * 3 + 1 * l.val = l.val; omega

/-- What point `t` writes back is block `t` of the Gram array of the points array as the region finds it. -/
theorem flushed_eq (c : Dev nD) (t : Fin cfg0.N) :
    (dats (F := Ideal) m 0 c).flushed 1 t = ((cfg0.win 1).blk t).view.read (Elt Ideal) (gram (V m c main_arg2)) := by
  show (cfg0.win 1).cut (grid0.coords t) ((dats m 0 c).after 1 t) = _
  rw [after0_1]
  unfold out0_1
  rw [View.canon_unit_zero hz3]
  simp only [View.ld_unit_zero (S := S1x3x262144) hz3]
  funext j
  obtain ⟨u, k, l, rfl⟩ : ∃ (u : Fin 1) (k l : Fin 3), j = ix3 u k l := ⟨j 0, j 1, j 2, eq_ix3 j⟩
  refine ((pay_apply _ u k l).trans ?_).trans (read_out t (gram (V m c main_arg2)) u k l).symm
  rw [gram_apply]
  exact Finset.sum_congr rfl fun n _ => by rw [read_in, read_in]

/-- An index of the output array is in point `t`'s block iff each coordinate is in the block's range on its axis. -/
theorem mem_blk (t : Fin cfg0.N) (i : S32x3x3.Idx) :
    i ∈ ((cfg0.win 1).blk t).view.set ↔ ∀ a : Fin 3, win0_1.index t a * S1x3x3.size a ≤ (i a).val ∧ (i a).val < win0_1.index t a * S1x3x3.size a + S1x3x3.size a := by
  show i ∈ ((View.whole main_v0).slice (win0_1.rect t)).set ↔ _
  rw [View.set_slice_whole, Rect.mem_set_unit]
  exact Iff.rfl

/-- Every index of the output array lies in the block of the point of its batch. -/
theorem cover (i : S32x3x3.Idx) : ∃ t : Fin cfg0.N, (cfg0.win 1).flush t = true ∧ i ∈ ((cfg0.win 1).blk t).view.set := by
  have h0 : (i 0).val < 32 := (i 0).isLt
  have h1 : (i 1).val < 3 := (i 1).isLt
  have h2 : (i 2).val < 3 := (i 2).isLt
  have hN : cfg0.N = 32 := N_0
  obtain ⟨t, ht⟩ : ∃ t : Fin cfg0.N, t.val = (i 0).val := ⟨⟨(i 0).val, by omega⟩, rfl⟩
  refine ⟨t, flush0_1 t, ?_⟩
  rw [mem_blk]
  obtain ⟨-, -, -, e3, e4, e5⟩ := idx_facts t
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 3 ≤ (i 1).val ∧ (i 1).val < win0_1.index t (1 : Fin 3) * 3 + 3; omega
  | ⟨2, _⟩ => show win0_1.index t (2 : Fin 3) * 3 ≤ (i 2).val ∧ (i 2).val < win0_1.index t (2 : Fin 3) * 3 + 3; omega

/-- The output array after the region is the Gram array of the points argument. -/
theorem gram_final (c : Dev nD) : (dats (F := Ideal) m 0 c).arrAt 1 cfg0.N = gram (m ((c : Thread nD τ).loc main_arg2)) := by
  rw [← V_main_arg2 m c]
  exact (dats (F := Ideal) m 0 c).arrAt_eq_of_cover 1 (gram (V m c main_arg2)) (fun t _ => flushed_eq m c t) cover

end Cert.KernelIdeal.Hand

end
-- ==== Proof.Basic.lean ====
import proofs.«141143_j824633721416_1_alg».proof.Proof.Gen.ReferenceIdeal
import Idealize.ShloMosaic.PureOps.Ideal
import Idealize.ShloMosaic.Lib.StableHlo.Run

noncomputable section

namespace Cert.Hand

open Cert.ReferenceIdeal Cert.ReferenceIdeal.Gen Idealize.ShloMosaic Idealize.ShloMosaic.TcCoe Idealize.SL.Sem Idealize.ShloMosaic.StableHlo

variable {F : FTy → Type} [FloatOps F]

/-- Every entry of the array is a real number: neither infinity occurs. -/
def AllReal {ι : Type} (v : ι → EReal) : Prop := ∀ i, ∃ r : ℝ, v i = (r : EReal)

/-- The last stretch, which both programs apply to their array `d[b,i,j]` of squared distances: the minimum over `i`,
    the mean over `j`, the mean over the batch `b`. -/
def finTail (d : (⟨S32x3x3, .f32⟩ : BufTy).Contents (Elt F)) : (⟨S_, .f32⟩ : BufTy).Contents (Elt F) :=
  Host.divf
    (Host.reduceAdd
      (Host.divf
        (Host.reduceAdd
          (Host.reduce FloatOps.minimumf d (constant S_ .f32 0x7F800000#32) reducesTo_S32x3x3_S32x3_d1 h_S_)
          (constant S_ .f32 0x00000000#32) reducesTo_S32x3_S32_d1 h_S_)
        (broadcastInDim S32 ![] bcast_S_S32 (constant S_ .f32 0x40400000#32)))
      (constant S_ .f32 0x00000000#32) reducesTo_S32_S_d0 h_S_)
    (constant S_ .f32 0x42000000#32)

end Cert.Hand

end
-- ==== Proof.KIdKDef.lean ====
import proofs.«141143_j824633721416_1_alg».proof.Proof.KIBasic

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- One column of the index array: the positions `0, 1, 2`, each moved up by three where it is negative (none is). -/
def diagCol : (⟨S3, .i32⟩ : BufTy).Contents (Elt F) :=
  select (cmpi .slt (iotaInDim S3 32 0) (broadcastInDim S3 ![] bcast_S_S3 (constantI S_ 32 0#32)))
    (addi (iotaInDim S3 32 0) (broadcastInDim S3 ![] bcast_S_S3 (constantI S_ 32 3#32))) (iotaInDim S3 32 0)

/-- The constant index array of the diagonal: row `k` is the pair `(k, k)`. -/
def diagIdx : (⟨S3x2, .i32⟩ : BufTy).Contents (Elt F) :=
  concatenate S3x2 1 [⟨S3x1, broadcastInDim S3x1 ![0] bcast_S3_S3x1_0 (diagCol (F := F))⟩,
    ⟨S3x1, broadcastInDim S3x1 ![0] bcast_S3_S3x1_0 (diagCol (F := F))⟩] concatenates_S3x1_S3x1_S3x2_d1

/-- The diagonal of each 3×3 matrix of the batch: the gather of `P` at the index array. -/
def diagK (P : (⟨S32x3x3, .f32⟩ : BufTy).Contents (Elt F)) : (⟨S32x3, .f32⟩ : BufTy).Contents (Elt F) :=
  Host.gather gather_S32x3x3_S3x2_S32x3_0_12_n_n_12_1_3211 P (diagIdx (F := F))

/-- The array of squared distances from the two diagonals and the cross term:
    `d[b,i,j] = (p[b,i] − 2·C[b,i,j]) + g[b,j]`. -/
def dComb (p g : (⟨S32x3, .f32⟩ : BufTy).Contents (Elt F)) (C : (⟨S32x3x3, .f32⟩ : BufTy).Contents (Elt F)) :
    (⟨S32x3x3, .f32⟩ : BufTy).Contents (Elt F) :=
  addf
    (subf
      (broadcastInDim S32x3x3 ![0, 1, 2] bcast_S32x3x1_S32x3x3_0_1_2 (broadcastInDim S32x3x1 ![0, 1] bcast_S32x3_S32x3x1_0_1 p))
      (mulf (broadcastInDim S32x3x3 ![] bcast_S_S32x3x3 (constant S_ .f32 0x40000000#32)) C))
    (broadcastInDim S32x3x3 ![0, 1, 2] bcast_S32x1x3_S32x3x3_0_1_2 (broadcastInDim S32x1x3 ![0, 2] bcast_S32x3_S32x1x3_0_2 g))

/-- The product `R·G` of the batch of rotations with the batch of Gram matrices. -/
def mulRG (R G : (⟨S32x3x3, .f32⟩ : BufTy).Contents (Elt F)) : (⟨S32x3x3, .f32⟩ : BufTy).Contents (Elt F) :=
  Host.dotGeneral dot_S32x3x3_S32x3x3_S32x3x3_2_1_1_2_0_0 none R G

/-- The product `A·Rᵀ`, batch by batch. -/
def mulART (A R : (⟨S32x3x3, .f32⟩ : BufTy).Contents (Elt F)) : (⟨S32x3x3, .f32⟩ : BufTy).Contents (Elt F) :=
  Host.dotGeneral dot_S32x3x3_S32x3x3_S32x3x3_2_2_1_1_0_0 none A R

/-- The squared distances as the kernel program's host operations compute them from the two rotations and the Gram
    matrix: `diag(Rp·G·Rpᵀ)[b,i] − 2·(Rp·G·Rgᵀ)[b,i,j] + diag(Rg·G·Rgᵀ)[b,j]`. -/
def dK (Rp Rg G : (⟨S32x3x3, .f32⟩ : BufTy).Contents (Elt F)) : (⟨S32x3x3, .f32⟩ : BufTy).Contents (Elt F) :=
  dComb (diagK (mulART (mulRG Rp G) Rp)) (diagK (mulART (mulRG Rg G) Rg)) (mulART (mulRG Rp G) Rg)

end Cert.KernelIdeal.Hand

end
-- ==== Proof.LibNary3.lean ====
/-
  An operation with three operands, read at the buffer it writes. From a valuation `V` of the buffers, the operation
  `nary ![x, a, b] y f` leaves in `y` the value of its function `f` at the family of its operands' contents; for the
  literal family `![x, a, b]` that family is the three contents `V x`, `V a`, `V b`, in this order
  (`Fin.cons (V x) (Fin.cons (V a) (Fin.cons (V b) _))`). The three-operand companion of the four-operand statement
  `nary4_result`.
-/
import Idealize.ShloMosaic.Lib.StableHlo.Run

noncomputable section

namespace Idealize.ShloMosaic.StableHlo

variable {τ : Topo} {sig : RefSig} {Val : EltTy → Type}
variable {x a b y : Ref sig .tc}

/-- What `nary ![x, a, b] y f` writes to `y` from `V`: `f` at the three operands' contents `V x`, `V a`, `V b`, in order. -/
theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same equation, the buffer that is read carrying an indexing annotation only: the statement is unchanged. -/
theorem nary3_result'
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- The fold of a list of operations read at one buffer: at the buffer an operation writes, its function of its operands'
    contents (three- and four-operand families operand by operand); at any other buffer, what was there before it. -/
macro "after_results_simp3" : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.KITail.lean ====
import proofs.«141143_j824633721416_1_alg».proof.Proof.Basic
import proofs.«141143_j824633721416_1_alg».proof.Proof.KIBasic
import proofs.«141143_j824633721416_1_alg».proof.Proof.KIdKDef
import proofs.«141143_j824633721416_1_alg».proof.Proof.LibNary3
import proofs.«141143_j824633721416_1_alg».proof.Proof.LibAfterAppend
import proofs.«141143_j824633721416_1_alg».proof.Proof.Gen.ReferenceIdeal.Read
import proofs.«141143_j824633721416_1_alg».proof.Proof.Gen.KernelIdeal.Launch

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! The host operations after the region, read stretch by stretch: what each stretch leaves in the few buffers the
later stretches read, as a function of the contents it starts from, and that it leaves alone the earlier results
still to be read. -/

set_option maxRecDepth 16384 in
set_option maxHeartbeats 40000000 in
/-- The last stretch: from the two diagonals and the cross term to the scalar result. -/
theorem s6_out (V : Valuation τ sig (Elt F)) :
    after (hostOps1_6 (F := F)) V (Proc.devRef .tc main_v159)
      = Cert.Hand.finTail (F := F) (dComb (V (Proc.devRef .tc main_v144)) (V (Proc.devRef .tc main_v145)) (V (Proc.devRef .tc main_v143))) := by
  simp only [hostOps1_6]
  after_results_simp3
  rfl

set_option maxRecDepth 16384 in
set_option maxHeartbeats 40000000 in
/-- The second diagonal call leaves the diagonal of the matrix it is given. -/
theorem s5_v145 (V : Valuation τ sig (Elt F)) :
    after (hostOps1_5 (F := F)) V (Proc.devRef .tc main_v145)
      = diagK (V (Proc.devRef .tc main_v142)) := by
  simp only [hostOps1_5]
  after_results_simp3
  rfl

set_option maxRecDepth 16384 in
set_option maxHeartbeats 40000000 in
/-- It leaves the first diagonal alone, -/
theorem s5_v144 (V : Valuation τ sig (Elt F)) :
    after (hostOps1_5 (F := F)) V (Proc.devRef .tc main_v144)
      = V (Proc.devRef .tc main_v144) := by
  simp only [hostOps1_5]
  after_results_simp3

set_option maxRecDepth 16384 in
set_option maxHeartbeats 40000000 in
/-- and the cross term. -/
theorem s5_v143 (V : Valuation τ sig (Elt F)) :
    after (hostOps1_5 (F := F)) V (Proc.devRef .tc main_v143)
      = V (Proc.devRef .tc main_v143) := by
  simp only [hostOps1_5]
  after_results_simp3

set_option maxRecDepth 16384 in
set_option maxHeartbeats 40000000 in
/-- The first diagonal call leaves the diagonal of the matrix it is given. -/
theorem s4_v144 (V : Valuation τ sig (Elt F)) :
    after (hostOps1_4 (F := F)) V (Proc.devRef .tc main_v144)
      = diagK (V (Proc.devRef .tc main_v141)) := by
  simp only [hostOps1_4]
  after_results_simp3
  rfl

set_option maxRecDepth 16384 in
set_option maxHeartbeats 40000000 in
/-- It leaves the second product alone, -/
theorem s4_v142 (V : Valuation τ sig (Elt F)) :
    after (hostOps1_4 (F := F)) V (Proc.devRef .tc main_v142)
      = V (Proc.devRef .tc main_v142) := by
  simp only [hostOps1_4]
  after_results_simp3

set_option maxRecDepth 16384 in
set_option maxHeartbeats 40000000 in
/-- and the cross term. -/
theorem s4_v143 (V : Valuation τ sig (Elt F)) :
    after (hostOps1_4 (F := F)) V (Proc.devRef .tc main_v143)
      = V (Proc.devRef .tc main_v143) := by
  simp only [hostOps1_4]
  after_results_simp3

set_option maxRecDepth 16384 in
set_option maxHeartbeats 40000000 in
/-- The second rotation stretch and the five products: `P2 = (Rp·G)·Rpᵀ` from the first rotation and the Gram matrix as they stand, -/
theorem s3_v141 (V : Valuation τ sig (Elt F)) :
    after (hostOps1_2 (F := F) ++ hostOps1_3) V (Proc.devRef .tc main_v141)
      = mulART (mulRG (V (Proc.devRef .tc main_v69)) (V (Proc.devRef .tc main_v0))) (V (Proc.devRef .tc main_v69)) := by
  simp only [hostOps1_2, hostOps1_3, List.cons_append, List.nil_append]
  after_results_simp3
  rfl

set_option maxRecDepth 16384 in
set_option maxHeartbeats 40000000 in
/-- `G2 = (Rg·G)·Rgᵀ` with `Rg` the reference's rotation matrix of the second quaternion array (the same composition of the same operations), -/
theorem s3_v142 (V : Valuation τ sig (Elt F)) :
    after (hostOps1_2 (F := F) ++ hostOps1_3) V (Proc.devRef .tc main_v142)
      = mulART (mulRG (Cert.ReferenceIdeal.Read.val_main_v137 (F := F) (V (Proc.devRef .tc main_arg1))) (V (Proc.devRef .tc main_v0))) (Cert.ReferenceIdeal.Read.val_main_v137 (F := F) (V (Proc.devRef .tc main_arg1))) := by
  simp only [hostOps1_2, hostOps1_3, List.cons_append, List.nil_append]
  after_results_simp3
  rfl

set_option maxRecDepth 16384 in
set_option maxHeartbeats 40000000 in
/-- and the cross term `(Rp·G)·Rgᵀ`. -/
theorem s3_v143 (V : Valuation τ sig (Elt F)) :
    after (hostOps1_2 (F := F) ++ hostOps1_3) V (Proc.devRef .tc main_v143)
      = mulART (mulRG (V (Proc.devRef .tc main_v69)) (V (Proc.devRef .tc main_v0))) (Cert.ReferenceIdeal.Read.val_main_v137 (F := F) (V (Proc.devRef .tc main_arg1))) := by
  simp only [hostOps1_2, hostOps1_3, List.cons_append, List.nil_append]
  after_results_simp3
  rfl

set_option maxRecDepth 16384 in
set_option maxHeartbeats 40000000 in
/-- The first rotation stretch leaves in `main_v69` the reference's rotation matrix of the first quaternion array (the same composition of the same operations). -/
theorem s1_v69 (V : Valuation τ sig (Elt F)) :
    after (hostOps1 (F := F) ++ hostOps1_1) V (Proc.devRef .tc main_v69)
      = Cert.ReferenceIdeal.Read.val_main_v68 (F := F) (V (Proc.devRef .tc main_arg0)) := by
  simp only [hostOps1, hostOps1_1, List.cons_append, List.nil_append]
  after_results_simp3
  rfl

set_option maxRecDepth 16384 in
set_option maxHeartbeats 40000000 in
/-- It leaves the second quaternion array alone, -/
theorem s1_arg1 (V : Valuation τ sig (Elt F)) :
    after (hostOps1 (F := F) ++ hostOps1_1) V (Proc.devRef .tc main_arg1)
      = V (Proc.devRef .tc main_arg1) := by
  simp only [hostOps1, hostOps1_1, List.cons_append, List.nil_append]
  after_results_simp3

set_option maxRecDepth 16384 in
set_option maxHeartbeats 40000000 in
/-- and the Gram matrix. -/
theorem s1_v0 (V : Valuation τ sig (Elt F)) :
    after (hostOps1 (F := F) ++ hostOps1_1) V (Proc.devRef .tc main_v0)
      = V (Proc.devRef .tc main_v0) := by
  simp only [hostOps1, hostOps1_1, List.cons_append, List.nil_append]
  after_results_simp3

/-- The seven stretches as one line of operations. -/
theorem tailOps_flatten : List.flatten (tailOps (F := F))
    = (hostOps1 ++ hostOps1_1) ++ ((hostOps1_2 ++ hostOps1_3) ++ (hostOps1_4 ++ (hostOps1_5 ++ hostOps1_6))) := by
  simp only [tailOps, List.flatten_cons, List.flatten_nil, List.append_nil, List.append_assoc]

/-- The host operations after the region as one pure function: from the two quaternion arrays and the Gram matrix the
    region left in `main_v0`, the scalar result is the last stretch applied to the array `dK` of the two rotations
    (the reference's) and the Gram matrix. -/
theorem tail_eq (W : Valuation τ sig (Elt Ideal)) :
    after (List.flatten (tailOps (F := Ideal))) W (Proc.devRef .tc main_v159)
      = Cert.Hand.finTail (F := Ideal) (dK (Cert.ReferenceIdeal.Read.val_main_v68 (F := Ideal) (W (Proc.devRef .tc main_arg0)))
          (Cert.ReferenceIdeal.Read.val_main_v137 (F := Ideal) (W (Proc.devRef .tc main_arg1))) (W (Proc.devRef .tc main_v0))) := by
  rw [tailOps_flatten, Cert.LibAfterAppend.after_append (hostOps1 (F := Ideal) ++ hostOps1_1),
    Cert.LibAfterAppend.after_append (hostOps1_2 (F := Ideal) ++ hostOps1_3),
    Cert.LibAfterAppend.after_append (hostOps1_4 (F := Ideal)), Cert.LibAfterAppend.after_append (hostOps1_5 (F := Ideal))]
  rw [s6_out, s5_v145, s5_v144, s5_v143, s4_v144, s4_v142, s4_v143, s3_v141, s3_v142, s3_v143, s1_v69, s1_arg1, s1_v0]
  rfl

end Cert.KernelIdeal.Hand

end
-- ==== Proof.KIRun.lean ====
import proofs.«141143_j824633721416_1_alg».proof.Proof.KIGram
import proofs.«141143_j824633721416_1_alg».proof.Proof.KITail

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The kernel program's run, read at its result: the host operations after the region see the two quaternion arrays
    as launched and the region's output at the Gram array of the points, so the result is the last stretch of the
    array `d` they build from the two rotation arrays and that Gram array; the arguments end unchanged. -/
theorem kernel_run : θ_run (defs (F := Ideal)) (onTc (τ := τ) (main (F := Ideal))) ⟨m, fun _ => 0, ρ⟩ (fun r => ∀ c : Dev nD,
    r.2.mem ((c.tc : Thread nD τ).loc main_v159)
      = Cert.Hand.finTail (F := Ideal) (dK (F := Ideal)
          (Cert.ReferenceIdeal.Read.val_main_v68 (F := Ideal) (m ((c.tc : Thread nD τ).loc main_arg0)))
          (Cert.ReferenceIdeal.Read.val_main_v137 (F := Ideal) (m ((c.tc : Thread nD τ).loc main_arg1)))
          (gram (m ((c.tc : Thread nD τ).loc main_arg2))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ⟨?_, post_kept m r h c⟩) (run_main (F := Ideal) m ρ)
  refine ((h c).2 main_v159 (Pipeline.mem_restRefs_of main_v159 (by decide) (by decide))).trans ?_
  unfold Pipeline.afterTail₀
  refine (tail_eq _).trans ?_
  have e0 : Pipeline.withArrays (cfgs 0).spec c (V0 m c) (fun w => (dats (F := Ideal) m 0 c).arrAt w (cfgs 0).N) (Proc.devRef .tc main_arg0)
      = m ((c.tc : Thread nD τ).loc main_arg0) :=
    Pipeline.withArrays_of_ne _ c (V0 m c) _ main_arg0 (by exact (by decide : ∀ w, Pipeline.arrRef spec0 w ≠ main_arg0))
  have e1 : Pipeline.withArrays (cfgs 0).spec c (V0 m c) (fun w => (dats (F := Ideal) m 0 c).arrAt w (cfgs 0).N) (Proc.devRef .tc main_arg1)
      = m ((c.tc : Thread nD τ).loc main_arg1) :=
    Pipeline.withArrays_of_ne _ c (V0 m c) _ main_arg1 (by exact (by decide : ∀ w, Pipeline.arrRef spec0 w ≠ main_arg1))
  have e2 : Pipeline.withArrays (cfgs 0).spec c (V0 m c) (fun w => (dats (F := Ideal) m 0 c).arrAt w (cfgs 0).N) (Proc.devRef .tc main_v0)
      = gram (m ((c.tc : Thread nD τ).loc main_arg2)) :=
    (Pipeline.withArrays_arr spec0 launch0.win.arr_inj c _ _ 1).trans (gram_final m c)
  rw [e0, e1, e2]

end Cert.KernelIdeal.Hand

end
-- ==== Proof.RefFrame.lean ====
import proofs.«141143_j824633721416_1_alg».proof.Defs
import proofs.«141143_j824633721416_1_alg».proof.Proof.Gen.ReferenceIdeal
import proofs.«141143_j824633721416_1_alg».proof.Proof.Gen.Pre_finite_inputs
import proofs.«141143_j824633721416_1_alg».proof.Proof.Gen.ReferenceIdeal.Read

noncomputable section

open Idealize.ShloMosaic Idealize.SL.Sem

namespace Cert.Proof.RefClaims

/-- The reference has no kernel launch: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.Algebra.lean ====
import Idealize.ShloMosaic.PureOps.Ideal

noncomputable section

namespace Cert.Hand.Algebra

open Finset

/-! The law that joins the two programs. For rows `p, g : Fin 3 → ℝ` of two 3×3 matrices and a 3×N array `x`, write
    `P_n = Σ_k p_k x_{k,n}`, `G_n = Σ_k g_k x_{k,n}` and `Γ_{l,k} = Σ_n x_{l,n} x_{k,n}` (the Gram matrix of the rows of `x`).
    Then `Σ_n (G_n − P_n)² = pᵀΓp − 2·pᵀΓg + gᵀΓg`: expanding the square and exchanging the finite sums. It is an
    identity of real polynomials; on the extended reals it holds where every entry is real, which is where it is used. -/

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The expansion over the reals. -/
theorem gram_expand_real {N : ℕ} (p g : Fin 3 → ℝ) (x : Fin 3 → Fin N → ℝ) :
    ∑ n, ((∑ k, g k * x k n) - (∑ k, p k * x k n)) * ((∑ k, g k * x k n) - (∑ k, p k * x k n))
      = ((∑ k, (∑ l, p l * (∑ n, x l n * x k n)) * p k) - 2 * (∑ k, (∑ l, p l * (∑ n, x l n * x k n)) * g k))
          + (∑ k, (∑ l, g l * (∑ n, x l n * x k n)) * g k) := by
  simp only [Fin.sum_univ_three, Finset.mul_sum, Finset.sum_mul, ← Finset.sum_add_distrib, ← Finset.sum_sub_distrib]
  refine Finset.sum_congr rfl fun n _ => ?_
  ring

/-- The single-precision pattern of `2.0` denotes the real number 2. -/
theorem ofBits_two : Idealize.ShloMosaic.Ideal.ofBits .f32 0x40000000#32 = ((2 : ℝ) : EReal) := by
  simp [Idealize.ShloMosaic.Ideal.ofBits, Idealize.ShloMosaic.Ideal.ieee]
  exact_mod_cast (by norm_num : (8388608 : ℝ) * ((2 : ℝ) ^ 22)⁻¹ = 2)

/-- The same on the extended reals, where every entry is a real number. -/
theorem gram_expand_ereal {N : ℕ} (P G : Fin 3 → EReal) (X : Fin 3 → Fin N → EReal) (two : EReal)
    (htwo : two = ((2 : ℝ) : EReal))
    (hP : ∀ k, ∃ r : ℝ, P k = (r : EReal)) (hG : ∀ k, ∃ r : ℝ, G k = (r : EReal))
    (hX : ∀ k n, ∃ r : ℝ, X k n = (r : EReal)) :
    ∑ n, ((∑ k, G k * X k n) - (∑ k, P k * X k n)) * ((∑ k, G k * X k n) - (∑ k, P k * X k n))
      = ((∑ k, (∑ l, P l * (∑ n, X l n * X k n)) * P k) - two * (∑ k, (∑ l, P l * (∑ n, X l n * X k n)) * G k))
          + (∑ k, (∑ l, G l * (∑ n, X l n * X k n)) * G k) := by
  choose p hp using hP
  choose g hg using hG
  choose x hx using hX
  subst htwo
  simp only [hp, hg, hx, ← EReal.coe_mul, ← coe_sum, ← EReal.coe_sub, ← EReal.coe_add]
  exact congrArg _ (gram_expand_real p g x)

end Cert.Hand.Algebra

end
-- ==== Proof.RefAt.lean ====
import proofs.«141143_j824633721416_1_alg».proof.Proof.Basic
import proofs.«141143_j824633721416_1_alg».proof.Proof.Gen.ReferenceIdeal.Read

noncomputable section

namespace Cert.Hand.RefAt

open Cert.ReferenceIdeal Cert.ReferenceIdeal.Gen Idealize.ShloMosaic Idealize.ShloMosaic.TcCoe Idealize.SL.Sem Idealize.ShloMosaic.StableHlo
open Cert.ReferenceIdeal.Read

/-- The reference's array of squared distances at the index `(b, i, j)`: the sum over the points `n` of the
    square of the difference between the `j`-th coordinate of the point rotated by the second rotation and the `i`-th
    coordinate of the point rotated by the first. -/
theorem ref_d_apply (x0 x1 : (⟨S32x4, .f32⟩ : BufTy).Contents (Elt Ideal))
    (x2 : (⟨S32x3x262144, .f32⟩ : BufTy).Contents (Elt Ideal)) (b : Fin 32) (i j : Fin 3) :
    Read.val_main_v146 (F := Ideal) x0 x1 x2 (ValueIdx.ix3 b i j) =
      (0 : EReal) + ∑ n : Fin 262144,
        ((∑ k : Fin 3, Read.val_main_v137 (F := Ideal) x1 (ValueIdx.ix3 b j k) * x2 (ValueIdx.ix3 b k n)) -
          (∑ k : Fin 3, Read.val_main_v68 (F := Ideal) x0 (ValueIdx.ix3 b i k) * x2 (ValueIdx.ix3 b k n))) *
        ((∑ k : Fin 3, Read.val_main_v137 (F := Ideal) x1 (ValueIdx.ix3 b j k) * x2 (ValueIdx.ix3 b k n)) -
          (∑ k : Fin 3, Read.val_main_v68 (F := Ideal) x0 (ValueIdx.ix3 b i k) * x2 (ValueIdx.ix3 b k n))) := by
  have hl1 : ∀ (n : Fin 262144) (k : Fin 3),
      lidx_main_v139 (idx_main_v140 (idx_main_v142 (idx_main_v146 (ValueIdx.ix3 b i j) n))) k = ValueIdx.ix3 b j k :=
    fun n k => funext fun a => Fin.ext (by match a with | ⟨0, _⟩ => rfl | ⟨1, _⟩ => rfl | ⟨2, _⟩ => rfl)
  have hr1 : ∀ (n : Fin 262144) (k : Fin 3),
      ridx_main_v139 (idx_main_v140 (idx_main_v142 (idx_main_v146 (ValueIdx.ix3 b i j) n))) k = ValueIdx.ix3 b k n :=
    fun n k => funext fun a => Fin.ext (by match a with | ⟨0, _⟩ => rfl | ⟨1, _⟩ => rfl | ⟨2, _⟩ => rfl)
  have hl0 : ∀ (n : Fin 262144) (k : Fin 3),
      lidx_main_v138 (idx_main_v141 (idx_main_v143 (idx_main_v146 (ValueIdx.ix3 b i j) n))) k = ValueIdx.ix3 b i k :=
    fun n k => funext fun a => Fin.ext (by match a with | ⟨0, _⟩ => rfl | ⟨1, _⟩ => rfl | ⟨2, _⟩ => rfl)
  have hr0 : ∀ (n : Fin 262144) (k : Fin 3),
      ridx_main_v138 (idx_main_v141 (idx_main_v143 (idx_main_v146 (ValueIdx.ix3 b i j) n))) k = ValueIdx.ix3 b k n :=
    fun n k => funext fun a => Fin.ext (by match a with | ⟨0, _⟩ => rfl | ⟨1, _⟩ => rfl | ⟨2, _⟩ => rfl)
  rw [val_main_v146_apply]
  refine congrArg₂ (· + ·) ?_ (Finset.sum_congr rfl fun n _ => ?_)
  · rw [val_main_cst_23_apply, Ideal.ofBits_def]
    exact Ideal.ofBits_zero_f32
  · rw [val_main_v145_apply, val_main_v144_apply, val_main_v142_apply, val_main_v143_apply, val_main_v140_apply,
      val_main_v141_apply, val_main_v139_apply, val_main_v138_apply, Ideal.mulf_def, Ideal.subf_def]
    simp only [hl1, hr1, hl0, hr0]

/-- The reference's result is the common last stretch — minimum over `i`, mean over `j`, mean over the batch — applied to
    its array of squared distances. -/
theorem ref_result_eq (x0 x1 : (⟨S32x4, .f32⟩ : BufTy).Contents (Elt Ideal))
    (x2 : (⟨S32x3x262144, .f32⟩ : BufTy).Contents (Elt Ideal)) :
    Read.val_main_v152 (F := Ideal) x0 x1 x2 =
      Cert.Hand.finTail (F := Ideal) (Read.val_main_v146 (F := Ideal) x0 x1 x2) := by
  unfold val_main_v152 val_main_v151 val_main_v150 val_main_v149 val_main_v148 val_main_v147
    val_main_cst_28 val_main_cst_27 val_main_cst_26 val_main_cst_25 val_main_cst_24 Cert.Hand.finTail
  rfl

end Cert.Hand.RefAt

end
-- ==== Proof.PreFacts.lean ====
import proofs.«141143_j824633721416_1_alg».proof.Proof.Basic
import proofs.«141143_j824633721416_1_alg».proof.Proof.Gen.ReferenceIdeal.Read
import proofs.«141143_j824633721416_1_alg».proof.Proof.Gen.Pre_finite_inputs
import Idealize.ShloMosaic.Lib.ReduceAll

noncomputable section

namespace Cert.Hand.PreFacts

open Cert.ReferenceIdeal Cert.ReferenceIdeal.Gen Idealize.ShloMosaic Idealize.ShloMosaic.TcCoe Idealize.SL.Sem Idealize.ShloMosaic.StableHlo
open Cert.ReferenceIdeal.Read

/-- The shape of a scalar has exactly one index. -/
instance : Subsingleton (⟨0, ![]⟩ : Shape).Idx := ⟨fun _ _ => funext fun d => d.elim0⟩

/-- An elementwise `and` of two arrays of bits that is 1 at an index has a 1 there in both. -/
theorem andi_one {s : Shape} (a b : IVec s 1) (i : s.Idx) (e : andi a b i = 1#1) : a i = 1#1 ∧ b i = 1#1 :=
  IntOp.andi_eq_one.1 e

/-- The bit pattern `0x7F800000` is `+∞`. -/
theorem ofBits_inf : Ideal.ofBits .f32 0x7F800000#32 = (⊤ : EReal) := by simp [Ideal.ofBits, Ideal.ieee]

/-- An extended real whose absolute value `max x (-x)` is strictly below `+∞` is a real number. -/
theorem real_of_abs_lt_inf (x : EReal)
    (e : Ideal.cmp .olt (max x (-x)) (Ideal.ofBits .f32 0x7F800000#32) = 1#1) : ∃ r : ℝ, x = (r : EReal) := by
  rw [ofBits_inf] at e
  unfold Ideal.cmp at e
  induction x using EReal.rec with
  | bot => simp at e
  | coe r => exact ⟨r, rfl⟩
  | top => simp at e

/-- A comparison "strictly greater than the zero literal" that holds says the value is positive. -/
theorem pos_of_ogt_zero (x : EReal)
    (e : Ideal.cmp .ogt x (Ideal.ofBits .f32 0x00000000#32) = 1#1) : (0 : EReal) < x := by
  rw [Ideal.ofBits_zero_f32] at e
  unfold Ideal.cmp at e
  by_contra hx
  simp [hx] at e

/-- What the precondition says: every entry of the three inputs is a real number, and the sum of the squares of each row
    of either quaternion array is positive. -/
theorem pre_facts (x0 x1 : (⟨S32x4, .f32⟩ : BufTy).Contents (Elt Ideal))
    (x2 : (⟨S32x3x262144, .f32⟩ : BufTy).Contents (Elt Ideal))
    (h : Cert.Pre_finite_inputs.fn (F := Ideal) x0 x1 x2 = fun _ => 1#1) :
    AllReal x0 ∧ AllReal x1 ∧ AllReal x2 ∧
      (∀ i, (0 : EReal) < Read.val_main_call0_v1 (F := Ideal) x0 i) ∧
      (∀ i, (0 : EReal) < Read.val_main_call1_v1 (F := Ideal) x1 i) := by
  have h0 := congrFun h ValueIdx.ix0
  dsimp only [Cert.Pre_finite_inputs.fn, Cert.Pre_finite_inputs.fn_part1] at h0
  obtain ⟨h0, e4⟩ := andi_one _ _ _ h0
  obtain ⟨h0, e3⟩ := andi_one _ _ _ h0
  obtain ⟨h0, e2⟩ := andi_one _ _ _ h0
  obtain ⟨e0, e1⟩ := andi_one _ _ _ h0
  refine ⟨fun i => ?_, fun i => ?_, fun i => ?_, fun i => ?_, fun i => ?_⟩
  · exact real_of_abs_lt_inf (x0 i) (Host.reduce_andi_all _ _ _ _ _ e0 i)
  · exact real_of_abs_lt_inf (x1 i) (Host.reduce_andi_all _ _ _ _ _ e1 i)
  · exact real_of_abs_lt_inf (x2 i) (Host.reduce_andi_all _ _ _ _ _ e2 i)
  · exact pos_of_ogt_zero _ (Host.reduce_andi_all _ _ _ _ _ e3 i)
  · exact pos_of_ogt_zero _ (Host.reduce_andi_all _ _ _ _ _ e4 i)

end Cert.Hand.PreFacts

end
-- ==== Proof.RotReal.lean ====
/-
  The rotation matrices of the reference are real-valued.

  Each of the two quaternion arguments is normalised (divided by the square root of the sum of the squares of its
  four components) and a 3x3 matrix is built from products, sums and differences of the normalised components and the
  constants 1 and 2. When the argument is real-valued and the sum of squares of every row is positive, the square root
  is a positive real, the quotient by it is real, and every later entry is a polynomial in real numbers: no infinity
  arises anywhere. Only real-valuedness is recorded here, not the formula for the entries.
-/
import proofs.«141143_j824633721416_1_alg».proof.Proof.Basic
import proofs.«141143_j824633721416_1_alg».proof.Proof.Gen.ReferenceIdeal.Read

noncomputable section

namespace Cert.Hand.RotReal

open Cert.ReferenceIdeal Cert.ReferenceIdeal.Gen Cert.ReferenceIdeal.Read Cert.Hand
open Idealize.ShloMosaic Idealize.ShloMosaic.TcCoe Idealize.SL.Sem Idealize.ShloMosaic.StableHlo

/-- Every entry of the array is a positive real number. -/
def AllPos {ι : Type} (v : ι → EReal) : Prop := ∀ i, ∃ r : ℝ, 0 < r ∧ v i = (r : EReal)

/-- A real-valued array whose entries are positive extended reals has positive real entries. -/
theorem pos_of_real {ι : Type} {v : ι → EReal} (h : AllReal v) (hp : ∀ i, (0 : EReal) < v i) : AllPos v := fun i => by
  obtain ⟨r, hr⟩ := h i
  exact ⟨r, EReal.coe_pos.1 (hr ▸ hp i), hr⟩

variable {s t : Shape}

/-! ### Pointwise arithmetic of real-valued arrays -/

theorem mulf_real {a b : FVec Ideal s .f32} (ha : AllReal a) (hb : AllReal b) : AllReal (mulf a b) := fun i => by
  obtain ⟨r, hr⟩ := ha i; obtain ⟨q, hq⟩ := hb i
  refine ⟨r * q, ?_⟩
  show FloatOps.mulf (F := Ideal) (a i) (b i) = _
  rw [Ideal.mulf_def, hr, hq, EReal.coe_mul]

theorem addf_real {a b : FVec Ideal s .f32} (ha : AllReal a) (hb : AllReal b) : AllReal (addf a b) := fun i => by
  obtain ⟨r, hr⟩ := ha i; obtain ⟨q, hq⟩ := hb i
  refine ⟨r + q, ?_⟩
  show FloatOps.addf (F := Ideal) (a i) (b i) = _
  rw [Ideal.addf_def, hr, hq, EReal.coe_add]

theorem subf_real {a b : FVec Ideal s .f32} (ha : AllReal a) (hb : AllReal b) : AllReal (subf a b) := fun i => by
  obtain ⟨r, hr⟩ := ha i; obtain ⟨q, hq⟩ := hb i
  refine ⟨r - q, ?_⟩
  show FloatOps.subf (F := Ideal) (a i) (b i) = _
  rw [Ideal.subf_def, hr, hq, EReal.coe_sub]

/-- The square root of a positive real is a positive real. -/
theorem sqrt_pos {a : FVec Ideal s .f32} (ha : AllPos a) : AllPos (Host.sqrt a) := fun i => by
  obtain ⟨r, hr0, hr⟩ := ha i
  refine ⟨Real.sqrt r, Real.sqrt_pos.2 hr0, ?_⟩
  show FloatOps.hostUnary (F := Ideal) .sqrt (a i) = _
  rw [Ideal.hostUnary_sqrt_def, hr, Ideal.sqrt_coe, if_neg (not_lt.2 hr0.le)]

/-- The quotient of a real by a positive real is real: the one division of the chain. -/
theorem divf_real {a b : FVec Ideal s .f32} (ha : AllReal a) (hb : AllPos b) : AllReal (Host.divf a b) := fun i => by
  obtain ⟨r, hr⟩ := ha i; obtain ⟨q, hq0, hq⟩ := hb i
  refine ⟨r * (1 / q), ?_⟩
  show FloatOps.hostDivf (F := Ideal) (a i) (b i) = _
  rw [Ideal.hostDivf_def, hq, Ideal.div_coe hq0.ne', hr, EReal.coe_mul]

/-! ### The constants 0, 1 and 2 -/

theorem zero_real : AllReal (constant (F := Ideal) s .f32 0x00000000#32) := fun _ =>
  ⟨0, by show FloatOps.ofBits (F := Ideal) .f32 0x00000000#32 = _; rw [Ideal.ofBits_def, Ideal.ofBits_zero_f32]; rfl⟩

theorem one_real : AllReal (constant (F := Ideal) s .f32 0x3F800000#32) := fun _ =>
  ⟨1, by show FloatOps.ofBits (F := Ideal) .f32 0x3F800000#32 = _; rw [Ideal.ofBits_def]; simp [Ideal.ofBits, Ideal.ieee, -EReal.coe_mul]; norm_num⟩

theorem two_real : AllReal (constant (F := Ideal) s .f32 0x40000000#32) := fun _ =>
  ⟨2, by show FloatOps.ofBits (F := Ideal) .f32 0x40000000#32 = _; rw [Ideal.ofBits_def]; simp [Ideal.ofBits, Ideal.ieee, -EReal.coe_mul]; norm_num⟩

/-! ### Layout operations only move entries -/

theorem bcast_real {dims : Fin s.rank → Fin t.rank} {h : s.BroadcastsInDim t dims} {x : s.Idx → EReal}
    (hx : AllReal x) : AllReal (broadcastInDim t dims h x) := fun _ => hx _

theorem bcast_pos {dims : Fin s.rank → Fin t.rank} {h : s.BroadcastsInDim t dims} {x : s.Idx → EReal}
    (hx : AllPos x) : AllPos (broadcastInDim t dims h x) := fun _ => hx _

theorem slice_real {off : Fin s.rank → Nat} {x : s.Idx → EReal} {h : s.Slices off t}
    (hx : AllReal x) : AllReal (extractStridedSlice t off x h) := fun _ => hx _

theorem cast_real {x : s.Idx → EReal} {h : s.ShapeCasts t}
    (hx : AllReal x) : AllReal (shapeCast t x h) := fun _ => hx _

/-- Every entry of a concatenation is an entry of one of its pieces. -/
theorem concat_real {a : Fin t.rank} {xs : List ((s : Shape) × (s.Idx → EReal))}
    {h : Shape.Concatenates (xs.map (·.1)) t a} (hx : ∀ p ∈ xs, AllReal p.2) : AllReal (concatenate t a xs h) := fun j => by
  unfold concatenate
  exact hx _ (List.getElem_mem _) _

theorem concat3_real {a : Fin t.rank} {s₁ s₂ s₃ : Shape} {x₁ : s₁.Idx → EReal} {x₂ : s₂.Idx → EReal} {x₃ : s₃.Idx → EReal}
    {h : Shape.Concatenates (([⟨s₁, x₁⟩, ⟨s₂, x₂⟩, ⟨s₃, x₃⟩] : List ((s : Shape) × (s.Idx → EReal))).map (·.1)) t a}
    (h₁ : AllReal x₁) (h₂ : AllReal x₂) (h₃ : AllReal x₃) :
    AllReal (concatenate t a [⟨s₁, x₁⟩, ⟨s₂, x₂⟩, ⟨s₃, x₃⟩] h) :=
  concat_real fun p hp => by
    simp only [List.mem_cons, List.not_mem_nil, or_false] at hp
    rcases hp with rfl | rfl | rfl
    · exact h₁
    · exact h₂
    · exact h₃

/-! ### The sum of the squares of a row -/

theorem sum_real {n : Nat} {f : Fin n → EReal} (hf : ∀ k, ∃ r : ℝ, f k = (r : EReal)) : ∃ r : ℝ, ∑ k, f k = (r : EReal) := by
  refine Finset.sum_induction f (fun x => ∃ r : ℝ, x = (r : EReal)) ?_ ⟨0, rfl⟩ (fun k _ => hf k)
  rintro _ _ ⟨r, rfl⟩ ⟨q, rfl⟩
  exact ⟨r + q, (EReal.coe_add r q).symm⟩

/-! ### The two chains -/

/-- The rotation matrix of the first quaternion argument is real-valued, for a real-valued argument whose rows have a
    positive sum of squares. -/
theorem rot_pred_real (x0 : (⟨Cert.ReferenceIdeal.S32x4, .f32⟩ : BufTy).Contents (Elt Ideal)) (hx : AllReal x0)
    (hpos : ∀ i, (0 : EReal) < Cert.ReferenceIdeal.Read.val_main_call0_v1 (F := Ideal) x0 i) :
    AllReal (Cert.ReferenceIdeal.Read.val_main_v68 (F := Ideal) x0) := by
  have h_call0_v0 : AllReal (val_main_call0_v0 (F := Ideal) x0) := mulf_real hx hx
  have h_call0_cst : AllReal (val_main_call0_cst (F := Ideal)) := zero_real
  -- the sum of the squares of a row: a sum of reals, positive by hypothesis
  have h_call0_v1_re : AllReal (val_main_call0_v1 (F := Ideal) x0) := fun i => by
    obtain ⟨z, hz⟩ := h_call0_cst (Shape.Idx.first h_S_)
    obtain ⟨r, hr⟩ := sum_real fun k => h_call0_v0 (idx_main_call0_v1 i k)
    exact ⟨z + r, by rw [val_main_call0_v1_apply, hz, hr, EReal.coe_add]⟩
  have h_call0_v1 : AllPos (val_main_call0_v1 (F := Ideal) x0) := pos_of_real h_call0_v1_re hpos
  have h_call0_v2 : AllPos (val_main_call0_v2 (F := Ideal) x0) := bcast_pos h_call0_v1
  -- its square root, the norm of the row: a positive real
  have h_v0 : AllPos (val_main_v0 (F := Ideal) x0) := sqrt_pos h_call0_v2
  have h_v1 : AllPos (val_main_v1 (F := Ideal) x0) := bcast_pos h_v0
  -- the normalised row: real divided by a positive real
  have h_v2 : AllReal (val_main_v2 (F := Ideal) x0) := divf_real hx h_v1
  -- its four components, their products, and the nine entries built from them
  have h_v3 : AllReal (val_main_v3 (F := Ideal) x0) := slice_real h_v2
  have h_v4 : AllReal (val_main_v4 (F := Ideal) x0) := cast_real h_v3
  have h_v5 : AllReal (val_main_v5 (F := Ideal) x0) := slice_real h_v2
  have h_v6 : AllReal (val_main_v6 (F := Ideal) x0) := cast_real h_v5
  have h_v7 : AllReal (val_main_v7 (F := Ideal) x0) := slice_real h_v2
  have h_v8 : AllReal (val_main_v8 (F := Ideal) x0) := cast_real h_v7
  have h_v9 : AllReal (val_main_v9 (F := Ideal) x0) := slice_real h_v2
  have h_v10 : AllReal (val_main_v10 (F := Ideal) x0) := cast_real h_v9
  have h_v11 : AllReal (val_main_v11 (F := Ideal) x0) := mulf_real h_v4 h_v4
  have h_v12 : AllReal (val_main_v12 (F := Ideal) x0) := mulf_real h_v6 h_v6
  have h_v13 : AllReal (val_main_v13 (F := Ideal) x0) := mulf_real h_v8 h_v8
  have h_v14 : AllReal (val_main_v14 (F := Ideal) x0) := mulf_real h_v4 h_v6
  have h_v15 : AllReal (val_main_v15 (F := Ideal) x0) := mulf_real h_v4 h_v8
  have h_v16 : AllReal (val_main_v16 (F := Ideal) x0) := mulf_real h_v6 h_v8
  have h_v17 : AllReal (val_main_v17 (F := Ideal) x0) := mulf_real h_v10 h_v4
  have h_v18 : AllReal (val_main_v18 (F := Ideal) x0) := mulf_real h_v10 h_v6
  have h_v19 : AllReal (val_main_v19 (F := Ideal) x0) := mulf_real h_v10 h_v8
  have h_v20 : AllReal (val_main_v20 (F := Ideal) x0) := addf_real h_v12 h_v13
  have h_cst : AllReal (val_main_cst (F := Ideal)) := two_real
  have h_v21 : AllReal (val_main_v21 (F := Ideal)) := bcast_real h_cst
  have h_v22 : AllReal (val_main_v22 (F := Ideal) x0) := mulf_real h_v21 h_v20
  have h_cst_0 : AllReal (val_main_cst_0 (F := Ideal)) := one_real
  have h_v23 : AllReal (val_main_v23 (F := Ideal)) := bcast_real h_cst_0
  have h_v24 : AllReal (val_main_v24 (F := Ideal) x0) := subf_real h_v23 h_v22
  have h_v25 : AllReal (val_main_v25 (F := Ideal) x0) := subf_real h_v14 h_v19
  have h_cst_1 : AllReal (val_main_cst_1 (F := Ideal)) := two_real
  have h_v26 : AllReal (val_main_v26 (F := Ideal)) := bcast_real h_cst_1
  have h_v27 : AllReal (val_main_v27 (F := Ideal) x0) := mulf_real h_v26 h_v25
  have h_v28 : AllReal (val_main_v28 (F := Ideal) x0) := addf_real h_v15 h_v18
  have h_cst_2 : AllReal (val_main_cst_2 (F := Ideal)) := two_real
  have h_v29 : AllReal (val_main_v29 (F := Ideal)) := bcast_real h_cst_2
  have h_v30 : AllReal (val_main_v30 (F := Ideal) x0) := mulf_real h_v29 h_v28
  have h_v31 : AllReal (val_main_v31 (F := Ideal) x0) := bcast_real h_v24
  have h_v32 : AllReal (val_main_v32 (F := Ideal) x0) := bcast_real h_v27
  have h_v33 : AllReal (val_main_v33 (F := Ideal) x0) := bcast_real h_v30
  have h_v34 : AllReal (val_main_v34 (F := Ideal) x0) := concat3_real h_v31 h_v32 h_v33
  have h_v35 : AllReal (val_main_v35 (F := Ideal) x0) := addf_real h_v14 h_v19
  have h_cst_3 : AllReal (val_main_cst_3 (F := Ideal)) := two_real
  have h_v36 : AllReal (val_main_v36 (F := Ideal)) := bcast_real h_cst_3
  have h_v37 : AllReal (val_main_v37 (F := Ideal) x0) := mulf_real h_v36 h_v35
  have h_v38 : AllReal (val_main_v38 (F := Ideal) x0) := addf_real h_v11 h_v13
  have h_cst_4 : AllReal (val_main_cst_4 (F := Ideal)) := two_real
  have h_v39 : AllReal (val_main_v39 (F := Ideal)) := bcast_real h_cst_4
  have h_v40 : AllReal (val_main_v40 (F := Ideal) x0) := mulf_real h_v39 h_v38
  have h_cst_5 : AllReal (val_main_cst_5 (F := Ideal)) := one_real
  have h_v41 : AllReal (val_main_v41 (F := Ideal)) := bcast_real h_cst_5
  have h_v42 : AllReal (val_main_v42 (F := Ideal) x0) := subf_real h_v41 h_v40
  have h_v43 : AllReal (val_main_v43 (F := Ideal) x0) := subf_real h_v16 h_v17
  have h_cst_6 : AllReal (val_main_cst_6 (F := Ideal)) := two_real
  have h_v44 : AllReal (val_main_v44 (F := Ideal)) := bcast_real h_cst_6
  have h_v45 : AllReal (val_main_v45 (F := Ideal) x0) := mulf_real h_v44 h_v43
  have h_v46 : AllReal (val_main_v46 (F := Ideal) x0) := bcast_real h_v37
  have h_v47 : AllReal (val_main_v47 (F := Ideal) x0) := bcast_real h_v42
  have h_v48 : AllReal (val_main_v48 (F := Ideal) x0) := bcast_real h_v45
  have h_v49 : AllReal (val_main_v49 (F := Ideal) x0) := concat3_real h_v46 h_v47 h_v48
  have h_v50 : AllReal (val_main_v50 (F := Ideal) x0) := subf_real h_v15 h_v18
  have h_cst_7 : AllReal (val_main_cst_7 (F := Ideal)) := two_real
  have h_v51 : AllReal (val_main_v51 (F := Ideal)) := bcast_real h_cst_7
  have h_v52 : AllReal (val_main_v52 (F := Ideal) x0) := mulf_real h_v51 h_v50
  have h_v53 : AllReal (val_main_v53 (F := Ideal) x0) := addf_real h_v16 h_v17
  have h_cst_8 : AllReal (val_main_cst_8 (F := Ideal)) := two_real
  have h_v54 : AllReal (val_main_v54 (F := Ideal)) := bcast_real h_cst_8
  have h_v55 : AllReal (val_main_v55 (F := Ideal) x0) := mulf_real h_v54 h_v53
  have h_v56 : AllReal (val_main_v56 (F := Ideal) x0) := addf_real h_v11 h_v12
  have h_cst_9 : AllReal (val_main_cst_9 (F := Ideal)) := two_real
  have h_v57 : AllReal (val_main_v57 (F := Ideal)) := bcast_real h_cst_9
  have h_v58 : AllReal (val_main_v58 (F := Ideal) x0) := mulf_real h_v57 h_v56
  have h_cst_10 : AllReal (val_main_cst_10 (F := Ideal)) := one_real
  have h_v59 : AllReal (val_main_v59 (F := Ideal)) := bcast_real h_cst_10
  have h_v60 : AllReal (val_main_v60 (F := Ideal) x0) := subf_real h_v59 h_v58
  have h_v61 : AllReal (val_main_v61 (F := Ideal) x0) := bcast_real h_v52
  have h_v62 : AllReal (val_main_v62 (F := Ideal) x0) := bcast_real h_v55
  have h_v63 : AllReal (val_main_v63 (F := Ideal) x0) := bcast_real h_v60
  have h_v64 : AllReal (val_main_v64 (F := Ideal) x0) := concat3_real h_v61 h_v62 h_v63
  have h_v65 : AllReal (val_main_v65 (F := Ideal) x0) := bcast_real h_v34
  have h_v66 : AllReal (val_main_v66 (F := Ideal) x0) := bcast_real h_v49
  have h_v67 : AllReal (val_main_v67 (F := Ideal) x0) := bcast_real h_v64
  have h_v68 : AllReal (val_main_v68 (F := Ideal) x0) := concat3_real h_v65 h_v66 h_v67
  exact h_v68

/-- The rotation matrix of the second quaternion argument is real-valued, under the same hypotheses: the same chain of
    operations under its own names. -/
theorem rot_gt_real (x1 : (⟨Cert.ReferenceIdeal.S32x4, .f32⟩ : BufTy).Contents (Elt Ideal)) (hx : AllReal x1)
    (hpos : ∀ i, (0 : EReal) < Cert.ReferenceIdeal.Read.val_main_call1_v1 (F := Ideal) x1 i) :
    AllReal (Cert.ReferenceIdeal.Read.val_main_v137 (F := Ideal) x1) := by
  have h_call1_v0 : AllReal (val_main_call1_v0 (F := Ideal) x1) := mulf_real hx hx
  have h_call1_cst : AllReal (val_main_call1_cst (F := Ideal)) := zero_real
  -- the sum of the squares of a row: a sum of reals, positive by hypothesis
  have h_call1_v1_re : AllReal (val_main_call1_v1 (F := Ideal) x1) := fun i => by
    obtain ⟨z, hz⟩ := h_call1_cst (Shape.Idx.first h_S_)
    obtain ⟨r, hr⟩ := sum_real fun k => h_call1_v0 (idx_main_call1_v1 i k)
    exact ⟨z + r, by rw [val_main_call1_v1_apply, hz, hr, EReal.coe_add]⟩
  have h_call1_v1 : AllPos (val_main_call1_v1 (F := Ideal) x1) := pos_of_real h_call1_v1_re hpos
  have h_call1_v2 : AllPos (val_main_call1_v2 (F := Ideal) x1) := bcast_pos h_call1_v1
  -- its square root, the norm of the row: a positive real
  have h_v69 : AllPos (val_main_v69 (F := Ideal) x1) := sqrt_pos h_call1_v2
  have h_v70 : AllPos (val_main_v70 (F := Ideal) x1) := bcast_pos h_v69
  -- the normalised row: real divided by a positive real
  have h_v71 : AllReal (val_main_v71 (F := Ideal) x1) := divf_real hx h_v70
  -- its four components, their products, and the nine entries built from them
  have h_v72 : AllReal (val_main_v72 (F := Ideal) x1) := slice_real h_v71
  have h_v73 : AllReal (val_main_v73 (F := Ideal) x1) := cast_real h_v72
  have h_v74 : AllReal (val_main_v74 (F := Ideal) x1) := slice_real h_v71
  have h_v75 : AllReal (val_main_v75 (F := Ideal) x1) := cast_real h_v74
  have h_v76 : AllReal (val_main_v76 (F := Ideal) x1) := slice_real h_v71
  have h_v77 : AllReal (val_main_v77 (F := Ideal) x1) := cast_real h_v76
  have h_v78 : AllReal (val_main_v78 (F := Ideal) x1) := slice_real h_v71
  have h_v79 : AllReal (val_main_v79 (F := Ideal) x1) := cast_real h_v78
  have h_v80 : AllReal (val_main_v80 (F := Ideal) x1) := mulf_real h_v73 h_v73
  have h_v81 : AllReal (val_main_v81 (F := Ideal) x1) := mulf_real h_v75 h_v75
  have h_v82 : AllReal (val_main_v82 (F := Ideal) x1) := mulf_real h_v77 h_v77
  have h_v83 : AllReal (val_main_v83 (F := Ideal) x1) := mulf_real h_v73 h_v75
  have h_v84 : AllReal (val_main_v84 (F := Ideal) x1) := mulf_real h_v73 h_v77
  have h_v85 : AllReal (val_main_v85 (F := Ideal) x1) := mulf_real h_v75 h_v77
  have h_v86 : AllReal (val_main_v86 (F := Ideal) x1) := mulf_real h_v79 h_v73
  have h_v87 : AllReal (val_main_v87 (F := Ideal) x1) := mulf_real h_v79 h_v75
  have h_v88 : AllReal (val_main_v88 (F := Ideal) x1) := mulf_real h_v79 h_v77
  have h_v89 : AllReal (val_main_v89 (F := Ideal) x1) := addf_real h_v81 h_v82
  have h_cst_11 : AllReal (val_main_cst_11 (F := Ideal)) := two_real
  have h_v90 : AllReal (val_main_v90 (F := Ideal)) := bcast_real h_cst_11
  have h_v91 : AllReal (val_main_v91 (F := Ideal) x1) := mulf_real h_v90 h_v89
  have h_cst_12 : AllReal (val_main_cst_12 (F := Ideal)) := one_real
  have h_v92 : AllReal (val_main_v92 (F := Ideal)) := bcast_real h_cst_12
  have h_v93 : AllReal (val_main_v93 (F := Ideal) x1) := subf_real h_v92 h_v91
  have h_v94 : AllReal (val_main_v94 (F := Ideal) x1) := subf_real h_v83 h_v88
  have h_cst_13 : AllReal (val_main_cst_13 (F := Ideal)) := two_real
  have h_v95 : AllReal (val_main_v95 (F := Ideal)) := bcast_real h_cst_13
  have h_v96 : AllReal (val_main_v96 (F := Ideal) x1) := mulf_real h_v95 h_v94
  have h_v97 : AllReal (val_main_v97 (F := Ideal) x1) := addf_real h_v84 h_v87
  have h_cst_14 : AllReal (val_main_cst_14 (F := Ideal)) := two_real
  have h_v98 : AllReal (val_main_v98 (F := Ideal)) := bcast_real h_cst_14
  have h_v99 : AllReal (val_main_v99 (F := Ideal) x1) := mulf_real h_v98 h_v97
  have h_v100 : AllReal (val_main_v100 (F := Ideal) x1) := bcast_real h_v93
  have h_v101 : AllReal (val_main_v101 (F := Ideal) x1) := bcast_real h_v96
  have h_v102 : AllReal (val_main_v102 (F := Ideal) x1) := bcast_real h_v99
  have h_v103 : AllReal (val_main_v103 (F := Ideal) x1) := concat3_real h_v100 h_v101 h_v102
  have h_v104 : AllReal (val_main_v104 (F := Ideal) x1) := addf_real h_v83 h_v88
  have h_cst_15 : AllReal (val_main_cst_15 (F := Ideal)) := two_real
  have h_v105 : AllReal (val_main_v105 (F := Ideal)) := bcast_real h_cst_15
  have h_v106 : AllReal (val_main_v106 (F := Ideal) x1) := mulf_real h_v105 h_v104
  have h_v107 : AllReal (val_main_v107 (F := Ideal) x1) := addf_real h_v80 h_v82
  have h_cst_16 : AllReal (val_main_cst_16 (F := Ideal)) := two_real
  have h_v108 : AllReal (val_main_v108 (F := Ideal)) := bcast_real h_cst_16
  have h_v109 : AllReal (val_main_v109 (F := Ideal) x1) := mulf_real h_v108 h_v107
  have h_cst_17 : AllReal (val_main_cst_17 (F := Ideal)) := one_real
  have h_v110 : AllReal (val_main_v110 (F := Ideal)) := bcast_real h_cst_17
  have h_v111 : AllReal (val_main_v111 (F := Ideal) x1) := subf_real h_v110 h_v109
  have h_v112 : AllReal (val_main_v112 (F := Ideal) x1) := subf_real h_v85 h_v86
  have h_cst_18 : AllReal (val_main_cst_18 (F := Ideal)) := two_real
  have h_v113 : AllReal (val_main_v113 (F := Ideal)) := bcast_real h_cst_18
  have h_v114 : AllReal (val_main_v114 (F := Ideal) x1) := mulf_real h_v113 h_v112
  have h_v115 : AllReal (val_main_v115 (F := Ideal) x1) := bcast_real h_v106
  have h_v116 : AllReal (val_main_v116 (F := Ideal) x1) := bcast_real h_v111
  have h_v117 : AllReal (val_main_v117 (F := Ideal) x1) := bcast_real h_v114
  have h_v118 : AllReal (val_main_v118 (F := Ideal) x1) := concat3_real h_v115 h_v116 h_v117
  have h_v119 : AllReal (val_main_v119 (F := Ideal) x1) := subf_real h_v84 h_v87
  have h_cst_19 : AllReal (val_main_cst_19 (F := Ideal)) := two_real
  have h_v120 : AllReal (val_main_v120 (F := Ideal)) := bcast_real h_cst_19
  have h_v121 : AllReal (val_main_v121 (F := Ideal) x1) := mulf_real h_v120 h_v119
  have h_v122 : AllReal (val_main_v122 (F := Ideal) x1) := addf_real h_v85 h_v86
  have h_cst_20 : AllReal (val_main_cst_20 (F := Ideal)) := two_real
  have h_v123 : AllReal (val_main_v123 (F := Ideal)) := bcast_real h_cst_20
  have h_v124 : AllReal (val_main_v124 (F := Ideal) x1) := mulf_real h_v123 h_v122
  have h_v125 : AllReal (val_main_v125 (F := Ideal) x1) := addf_real h_v80 h_v81
  have h_cst_21 : AllReal (val_main_cst_21 (F := Ideal)) := two_real
  have h_v126 : AllReal (val_main_v126 (F := Ideal)) := bcast_real h_cst_21
  have h_v127 : AllReal (val_main_v127 (F := Ideal) x1) := mulf_real h_v126 h_v125
  have h_cst_22 : AllReal (val_main_cst_22 (F := Ideal)) := one_real
  have h_v128 : AllReal (val_main_v128 (F := Ideal)) := bcast_real h_cst_22
  have h_v129 : AllReal (val_main_v129 (F := Ideal) x1) := subf_real h_v128 h_v127
  have h_v130 : AllReal (val_main_v130 (F := Ideal) x1) := bcast_real h_v121
  have h_v131 : AllReal (val_main_v131 (F := Ideal) x1) := bcast_real h_v124
  have h_v132 : AllReal (val_main_v132 (F := Ideal) x1) := bcast_real h_v129
  have h_v133 : AllReal (val_main_v133 (F := Ideal) x1) := concat3_real h_v130 h_v131 h_v132
  have h_v134 : AllReal (val_main_v134 (F := Ideal) x1) := bcast_real h_v103
  have h_v135 : AllReal (val_main_v135 (F := Ideal) x1) := bcast_real h_v118
  have h_v136 : AllReal (val_main_v136 (F := Ideal) x1) := bcast_real h_v133
  have h_v137 : AllReal (val_main_v137 (F := Ideal) x1) := concat3_real h_v134 h_v135 h_v136
  exact h_v137

end Cert.Hand.RotReal

end
-- ==== Proof.KIdK.lean ====
import proofs.«141143_j824633721416_1_alg».proof.Proof.KIBasic
import proofs.«141143_j824633721416_1_alg».proof.Proof.KIdKDef
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo

/-! ## The two batched matrix products read at an index

The coordinates of the operand indices a product reads for the result index `i` and the contraction index `q`: on the
batch axis and on the free axis the result's coordinate, on the contracted axis `q`'s. -/

theorem lhs_RG_0 (i : S32x3x3.Idx) (q : dot_S32x3x3_S32x3x3_S32x3x3_2_1_1_2_0_0.contr.Idx) :
    (dot_S32x3x3_S32x3x3_S32x3x3_2_1_1_2_0_0.lhsIdx i q 0).val = (i 0).val := by
  unfold DotDims.lhsIdx
  rw [dif_pos (show (0 : Fin S32x3x3.rank) ∈ dot_S32x3x3_S32x3x3_S32x3x3_2_1_1_2_0_0.lhsBatch by decide)]
  rfl
theorem lhs_RG_1 (i : S32x3x3.Idx) (q : dot_S32x3x3_S32x3x3_S32x3x3_2_1_1_2_0_0.contr.Idx) :
    (dot_S32x3x3_S32x3x3_S32x3x3_2_1_1_2_0_0.lhsIdx i q 1).val = (i 1).val := by
  unfold DotDims.lhsIdx
  rw [dif_neg (show ¬(1 : Fin S32x3x3.rank) ∈ dot_S32x3x3_S32x3x3_S32x3x3_2_1_1_2_0_0.lhsBatch by decide), dif_pos (show (1 : Fin S32x3x3.rank) ∈ dot_S32x3x3_S32x3x3_S32x3x3_2_1_1_2_0_0.lhsNonContracting by decide)]
  rfl
theorem lhs_RG_2 (i : S32x3x3.Idx) (q : dot_S32x3x3_S32x3x3_S32x3x3_2_1_1_2_0_0.contr.Idx) :
    (dot_S32x3x3_S32x3x3_S32x3x3_2_1_1_2_0_0.lhsIdx i q 2).val = (q ⟨0, by decide⟩).val :=
  dot_S32x3x3_S32x3x3_S32x3x3_2_1_1_2_0_0.lhsIdx_val_of_single rfl i q
theorem rhs_RG_0 (i : S32x3x3.Idx) (q : dot_S32x3x3_S32x3x3_S32x3x3_2_1_1_2_0_0.contr.Idx) :
    (dot_S32x3x3_S32x3x3_S32x3x3_2_1_1_2_0_0.rhsIdx i q 0).val = (i 0).val := by
  unfold DotDims.rhsIdx
  rw [dif_pos (show (0 : Fin S32x3x3.rank) ∈ dot_S32x3x3_S32x3x3_S32x3x3_2_1_1_2_0_0.rhsBatch by decide)]
  rfl
theorem rhs_RG_1 (i : S32x3x3.Idx) (q : dot_S32x3x3_S32x3x3_S32x3x3_2_1_1_2_0_0.contr.Idx) :
    (dot_S32x3x3_S32x3x3_S32x3x3_2_1_1_2_0_0.rhsIdx i q 1).val = (q ⟨0, by decide⟩).val :=
  dot_S32x3x3_S32x3x3_S32x3x3_2_1_1_2_0_0.rhsIdx_val_of_single rfl i q
theorem rhs_RG_2 (i : S32x3x3.Idx) (q : dot_S32x3x3_S32x3x3_S32x3x3_2_1_1_2_0_0.contr.Idx) :
    (dot_S32x3x3_S32x3x3_S32x3x3_2_1_1_2_0_0.rhsIdx i q 2).val = (i 2).val := by
  unfold DotDims.rhsIdx
  rw [dif_neg (show ¬(2 : Fin S32x3x3.rank) ∈ dot_S32x3x3_S32x3x3_S32x3x3_2_1_1_2_0_0.rhsBatch by decide), dif_pos (show (2 : Fin S32x3x3.rank) ∈ dot_S32x3x3_S32x3x3_S32x3x3_2_1_1_2_0_0.rhsNonContracting by decide)]
  rfl

theorem lhs_ART_0 (i : S32x3x3.Idx) (q : dot_S32x3x3_S32x3x3_S32x3x3_2_2_1_1_0_0.contr.Idx) :
    (dot_S32x3x3_S32x3x3_S32x3x3_2_2_1_1_0_0.lhsIdx i q 0).val = (i 0).val := by
  unfold DotDims.lhsIdx
  rw [dif_pos (show (0 : Fin S32x3x3.rank) ∈ dot_S32x3x3_S32x3x3_S32x3x3_2_2_1_1_0_0.lhsBatch by decide)]
  rfl
theorem lhs_ART_1 (i : S32x3x3.Idx) (q : dot_S32x3x3_S32x3x3_S32x3x3_2_2_1_1_0_0.contr.Idx) :
    (dot_S32x3x3_S32x3x3_S32x3x3_2_2_1_1_0_0.lhsIdx i q 1).val = (i 1).val := by
  unfold DotDims.lhsIdx
  rw [dif_neg (show ¬(1 : Fin S32x3x3.rank) ∈ dot_S32x3x3_S32x3x3_S32x3x3_2_2_1_1_0_0.lhsBatch by decide), dif_pos (show (1 : Fin S32x3x3.rank) ∈ dot_S32x3x3_S32x3x3_S32x3x3_2_2_1_1_0_0.lhsNonContracting by decide)]
  rfl
theorem lhs_ART_2 (i : S32x3x3.Idx) (q : dot_S32x3x3_S32x3x3_S32x3x3_2_2_1_1_0_0.contr.Idx) :
    (dot_S32x3x3_S32x3x3_S32x3x3_2_2_1_1_0_0.lhsIdx i q 2).val = (q ⟨0, by decide⟩).val :=
  dot_S32x3x3_S32x3x3_S32x3x3_2_2_1_1_0_0.lhsIdx_val_of_single rfl i q
theorem rhs_ART_0 (i : S32x3x3.Idx) (q : dot_S32x3x3_S32x3x3_S32x3x3_2_2_1_1_0_0.contr.Idx) :
    (dot_S32x3x3_S32x3x3_S32x3x3_2_2_1_1_0_0.rhsIdx i q 0).val = (i 0).val := by
  unfold DotDims.rhsIdx
  rw [dif_pos (show (0 : Fin S32x3x3.rank) ∈ dot_S32x3x3_S32x3x3_S32x3x3_2_2_1_1_0_0.rhsBatch by decide)]
  rfl
theorem rhs_ART_1 (i : S32x3x3.Idx) (q : dot_S32x3x3_S32x3x3_S32x3x3_2_2_1_1_0_0.contr.Idx) :
    (dot_S32x3x3_S32x3x3_S32x3x3_2_2_1_1_0_0.rhsIdx i q 1).val = (i 2).val := by
  unfold DotDims.rhsIdx
  rw [dif_neg (show ¬(1 : Fin S32x3x3.rank) ∈ dot_S32x3x3_S32x3x3_S32x3x3_2_2_1_1_0_0.rhsBatch by decide), dif_pos (show (1 : Fin S32x3x3.rank) ∈ dot_S32x3x3_S32x3x3_S32x3x3_2_2_1_1_0_0.rhsNonContracting by decide)]
  rfl
theorem rhs_ART_2 (i : S32x3x3.Idx) (q : dot_S32x3x3_S32x3x3_S32x3x3_2_2_1_1_0_0.contr.Idx) :
    (dot_S32x3x3_S32x3x3_S32x3x3_2_2_1_1_0_0.rhsIdx i q 2).val = (q ⟨0, by decide⟩).val :=
  dot_S32x3x3_S32x3x3_S32x3x3_2_2_1_1_0_0.rhsIdx_val_of_single rfl i q

/-- The product `R·G` of a batch of 3×3 matrices, entry `(i, k)` of member `b`: the sum over `l` of `R[b,i,l]·G[b,l,k]`. -/
theorem dotRG_apply (R G : (⟨S32x3x3, .f32⟩ : BufTy).Contents (Elt Ideal)) (b : Fin 32) (i k : Fin 3) :
    Host.dotGeneral (F := Ideal) (φ₁ := .f32) (φ₂ := .f32) dot_S32x3x3_S32x3x3_S32x3x3_2_1_1_2_0_0 none R G (ValueIdx.ix3 b i k)
      = ∑ l : Fin 3, R (ValueIdx.ix3 b i l) * G (ValueIdx.ix3 b l k) := by
  simp only [Host.dotGeneral]
  rw [Ideal.dotGeneral_apply, ← Equiv.sum_comp (ValueIdx.contrEquiv1 dot_S32x3x3_S32x3x3_S32x3x3_2_1_1_2_0_0 3 rfl rfl).symm]
  refine Finset.sum_congr rfl fun l _ => ?_
  have hk := ValueIdx.contrEquiv1_symm_val dot_S32x3x3_S32x3x3_S32x3x3_2_1_1_2_0_0 3 rfl rfl l
  have el : dot_S32x3x3_S32x3x3_S32x3x3_2_1_1_2_0_0.lhsIdx (ValueIdx.ix3 b i k) ((ValueIdx.contrEquiv1 dot_S32x3x3_S32x3x3_S32x3x3_2_1_1_2_0_0 3 rfl rfl).symm l) = ValueIdx.ix3 b i l :=
    funext fun a => Fin.ext (by
      match a with
      | ⟨0, _⟩ => exact lhs_RG_0 _ _
      | ⟨1, _⟩ => exact lhs_RG_1 _ _
      | ⟨2, _⟩ => exact (lhs_RG_2 _ _).trans hk)
  have er : dot_S32x3x3_S32x3x3_S32x3x3_2_1_1_2_0_0.rhsIdx (ValueIdx.ix3 b i k) ((ValueIdx.contrEquiv1 dot_S32x3x3_S32x3x3_S32x3x3_2_1_1_2_0_0 3 rfl rfl).symm l) = ValueIdx.ix3 b l k :=
    funext fun a => Fin.ext (by
      match a with
      | ⟨0, _⟩ => exact rhs_RG_0 _ _
      | ⟨1, _⟩ => exact (rhs_RG_1 _ _).trans hk
      | ⟨2, _⟩ => exact rhs_RG_2 _ _)
  rw [el, er]

/-- The product `A·Rᵀ`, entry `(i, j)` of member `b`: the sum over `k` of `A[b,i,k]·R[b,j,k]`. -/
theorem dotART_apply (A R : (⟨S32x3x3, .f32⟩ : BufTy).Contents (Elt Ideal)) (b : Fin 32) (i j : Fin 3) :
    Host.dotGeneral (F := Ideal) (φ₁ := .f32) (φ₂ := .f32) dot_S32x3x3_S32x3x3_S32x3x3_2_2_1_1_0_0 none A R (ValueIdx.ix3 b i j)
      = ∑ k : Fin 3, A (ValueIdx.ix3 b i k) * R (ValueIdx.ix3 b j k) := by
  simp only [Host.dotGeneral]
  rw [Ideal.dotGeneral_apply, ← Equiv.sum_comp (ValueIdx.contrEquiv1 dot_S32x3x3_S32x3x3_S32x3x3_2_2_1_1_0_0 3 rfl rfl).symm]
  refine Finset.sum_congr rfl fun k _ => ?_
  have hk := ValueIdx.contrEquiv1_symm_val dot_S32x3x3_S32x3x3_S32x3x3_2_2_1_1_0_0 3 rfl rfl k
  have el : dot_S32x3x3_S32x3x3_S32x3x3_2_2_1_1_0_0.lhsIdx (ValueIdx.ix3 b i j) ((ValueIdx.contrEquiv1 dot_S32x3x3_S32x3x3_S32x3x3_2_2_1_1_0_0 3 rfl rfl).symm k) = ValueIdx.ix3 b i k :=
    funext fun a => Fin.ext (by
      match a with
      | ⟨0, _⟩ => exact lhs_ART_0 _ _
      | ⟨1, _⟩ => exact lhs_ART_1 _ _
      | ⟨2, _⟩ => exact (lhs_ART_2 _ _).trans hk)
  have er : dot_S32x3x3_S32x3x3_S32x3x3_2_2_1_1_0_0.rhsIdx (ValueIdx.ix3 b i j) ((ValueIdx.contrEquiv1 dot_S32x3x3_S32x3x3_S32x3x3_2_2_1_1_0_0 3 rfl rfl).symm k) = ValueIdx.ix3 b j k :=
    funext fun a => Fin.ext (by
      match a with
      | ⟨0, _⟩ => exact rhs_ART_0 _ _
      | ⟨1, _⟩ => exact rhs_ART_1 _ _
      | ⟨2, _⟩ => exact (rhs_ART_2 _ _).trans hk)
  rw [el, er]

/-! ## The index array of the diagonal -/

section IndexArray
variable {F : FTy → Type} [FloatOps F]

/-- Entry `i` of the column is the word `i`: no position is negative, so none is moved. -/
theorem diagCol_apply (i : Fin 3) : diagCol (F := F) (ValueIdx.ix1 i) = BitVec.ofNat 32 i.val := by
  match i with
  | ⟨0, _⟩ => rfl
  | ⟨1, _⟩ => rfl
  | ⟨2, _⟩ => rfl

/-- Both entries of row `i` of the index array are the word `i`. -/
theorem diagIdx_apply (i : Fin 3) (c : Fin 2) : diagIdx (F := F) (ValueIdx.ix2 i c) = BitVec.ofNat 32 i.val := by
  unfold diagIdx
  match c with
  | ⟨0, _⟩ =>
    rw [concatenate_pair_apply_left (1 : Fin S3x2.rank) _ _ concatenates_S3x1_S3x1_S3x2_d1 _ rfl (ValueIdx.ix2 i 0)
      (fun a => by match a with | ⟨0, _⟩ => rfl | ⟨1, _⟩ => rfl)]
    rw [broadcastInDim_apply _ bcast_S3_S3x1_0 _ _ (ValueIdx.ix1 i) (fun a => by
      match a with | ⟨0, _⟩ => show i.val = if (3 : Nat) = 1 then 0 else i.val; rw [if_neg (by decide)])]
    exact diagCol_apply i
  | ⟨1, _⟩ =>
    rw [concatenate_pair_apply_right (1 : Fin S3x2.rank) _ _ concatenates_S3x1_S3x1_S3x2_d1 _ rfl rfl (ValueIdx.ix2 i 0)
      (fun a ha => by match a with | ⟨0, _⟩ => rfl | ⟨1, _⟩ => exact absurd rfl ha) rfl]
    rw [broadcastInDim_apply _ bcast_S3_S3x1_0 _ _ (ValueIdx.ix1 i) (fun a => by
      match a with | ⟨0, _⟩ => show i.val = if (3 : Nat) = 1 then 0 else i.val; rw [if_neg (by decide)])]
    exact diagCol_apply i

end IndexArray

/-! ## The gather of the diagonal -/

section Gather
variable {F : FTy → Type} [FloatOps F]

/-- A word below three, read as a signed integer and clamped into `[0, 2]`, is itself. -/
theorem clamp_word (i : Fin 3) : min (BitVec.ofNat 32 i.val).toInt.toNat (3 - 1) = i.val := by
  match i with
  | ⟨0, _⟩ => rfl
  | ⟨1, _⟩ => rfl
  | ⟨2, _⟩ => rfl

/-- The start-indices index at which result index `(b, i)` reads component `c` of its start index: row `i`, column `c`. -/
theorem diag_siIdx (b : Fin 32) (i : Fin 3) (c : Fin 2) :
    gather_S32x3x3_S3x2_S32x3_0_12_n_n_12_1_3211.siIdx (ValueIdx.ix2 b i) ⟨c.val, c.isLt⟩ = ValueIdx.ix2 i c :=
  funext fun a => Fin.ext (by
    match a with
    | ⟨0, _⟩ => rfl
    | ⟨1, _⟩ => rfl)

/-- The operand index the gather reads for result index `(b, i)`: the diagonal entry `(b, i, i)`. -/
theorem diag_operandIdx (b : Fin 32) (i : Fin 3) :
    gather_S32x3x3_S3x2_S32x3_0_12_n_n_12_1_3211.operandIdx (ValueIdx.ix2 b i) (diagIdx (F := F)) = ValueIdx.ix3 b i i :=
  funext fun a => Fin.ext (by
    match a with
    | ⟨0, _⟩ =>
      show gather_S32x3x3_S3x2_S32x3_0_12_n_n_12_1_3211.start (ValueIdx.ix2 b i) (diagIdx (F := F)) 0 + gather_S32x3x3_S3x2_S32x3_0_12_n_n_12_1_3211.batchCoord (ValueIdx.ix2 b i) 0
        + gather_S32x3x3_S3x2_S32x3_0_12_n_n_12_1_3211.offCoord (ValueIdx.ix2 b i) 0 = b.val
      rw [GatherDims.batchCoord_eq_zero _ _ _ List.not_mem_nil]
      unfold GatherDims.start GatherDims.offCoord
      rw [dif_neg (show ¬(0 : Fin S32x3x3.rank) ∈ gather_S32x3x3_S3x2_S32x3_0_12_n_n_12_1_3211.startIndexMap by decide),
        dif_pos (show (0 : Fin S32x3x3.rank) ∈ gather_S32x3x3_S3x2_S32x3_0_12_n_n_12_1_3211.sKept by decide), Nat.add_zero, Nat.zero_add]
      rfl
    | ⟨1, _⟩ =>
      show gather_S32x3x3_S3x2_S32x3_0_12_n_n_12_1_3211.start (ValueIdx.ix2 b i) (diagIdx (F := F)) 1 + gather_S32x3x3_S3x2_S32x3_0_12_n_n_12_1_3211.batchCoord (ValueIdx.ix2 b i) 1
        + gather_S32x3x3_S3x2_S32x3_0_12_n_n_12_1_3211.offCoord (ValueIdx.ix2 b i) 1 = i.val
      rw [GatherDims.batchCoord_eq_zero _ _ _ List.not_mem_nil,
        GatherDims.offCoord_eq_zero _ _ _ (show ¬(1 : Fin S32x3x3.rank) ∈ gather_S32x3x3_S3x2_S32x3_0_12_n_n_12_1_3211.sKept by decide)]
      unfold GatherDims.start
      rw [dif_pos (show (1 : Fin S32x3x3.rank) ∈ gather_S32x3x3_S3x2_S32x3_0_12_n_n_12_1_3211.startIndexMap by decide)]
      have e := diag_siIdx b i 0
      have e' : gather_S32x3x3_S3x2_S32x3_0_12_n_n_12_1_3211.siIdx (ValueIdx.ix2 b i)
          ⟨List.idxOf (1 : Fin S32x3x3.rank) gather_S32x3x3_S3x2_S32x3_0_12_n_n_12_1_3211.startIndexMap, List.idxOf_lt_length_iff.2 (by decide)⟩ = ValueIdx.ix2 i 0 := e
      rw [e', diagIdx_apply]
      exact clamp_word i
    | ⟨2, _⟩ =>
      show gather_S32x3x3_S3x2_S32x3_0_12_n_n_12_1_3211.start (ValueIdx.ix2 b i) (diagIdx (F := F)) 2 + gather_S32x3x3_S3x2_S32x3_0_12_n_n_12_1_3211.batchCoord (ValueIdx.ix2 b i) 2
        + gather_S32x3x3_S3x2_S32x3_0_12_n_n_12_1_3211.offCoord (ValueIdx.ix2 b i) 2 = i.val
      rw [GatherDims.batchCoord_eq_zero _ _ _ List.not_mem_nil,
        GatherDims.offCoord_eq_zero _ _ _ (show ¬(2 : Fin S32x3x3.rank) ∈ gather_S32x3x3_S3x2_S32x3_0_12_n_n_12_1_3211.sKept by decide)]
      unfold GatherDims.start
      rw [dif_pos (show (2 : Fin S32x3x3.rank) ∈ gather_S32x3x3_S3x2_S32x3_0_12_n_n_12_1_3211.startIndexMap by decide)]
      have e := diag_siIdx b i 1
      have e' : gather_S32x3x3_S3x2_S32x3_0_12_n_n_12_1_3211.siIdx (ValueIdx.ix2 b i)
          ⟨List.idxOf (2 : Fin S32x3x3.rank) gather_S32x3x3_S3x2_S32x3_0_12_n_n_12_1_3211.startIndexMap, List.idxOf_lt_length_iff.2 (by decide)⟩ = ValueIdx.ix2 i 1 := e
      rw [e', diagIdx_apply]
      exact clamp_word i)

/-- The gathered diagonal at `(b, i)` is the matrix entry `(b, i, i)`. -/
theorem diagK_apply (P : (⟨S32x3x3, .f32⟩ : BufTy).Contents (Elt F)) (b : Fin 32) (i : Fin 3) :
    diagK (F := F) P (ValueIdx.ix2 b i) = P (ValueIdx.ix3 b i i) := by
  unfold diagK Host.gather
  exact congrArg P (diag_operandIdx b i)

end Gather

/-! ## The combination, and the array of squared distances at an index -/

/-- The combination at `(b, i, j)`: `(p[b,i] − 2·C[b,i,j]) + g[b,j]`. -/
theorem dComb_apply (p g : (⟨S32x3, .f32⟩ : BufTy).Contents (Elt Ideal)) (C : (⟨S32x3x3, .f32⟩ : BufTy).Contents (Elt Ideal))
    (b : Fin 32) (i j : Fin 3) :
    dComb (F := Ideal) p g C (ValueIdx.ix3 b i j)
      = (p (ValueIdx.ix2 b i) - Ideal.ofBits .f32 0x40000000#32 * C (ValueIdx.ix3 b i j)) + g (ValueIdx.ix2 b j) := by
  unfold dComb
  rw [ValueIdx.addf_apply, ValueIdx.subf_apply, ValueIdx.mulf_apply]
  refine congrArg₂ (· + ·) (congrArg₂ (· - ·) ?_ (congrArg₂ (· * ·) ?_ rfl)) ?_
  · rw [broadcastInDim_apply _ bcast_S32x3x1_S32x3x3_0_1_2 _ _ (ValueIdx.ix3 b i 0) (fun a => by
        match a with
        | ⟨0, _⟩ => show b.val = if (32 : Nat) = 1 then 0 else b.val; rw [if_neg (by decide)]
        | ⟨1, _⟩ => show i.val = if (3 : Nat) = 1 then 0 else i.val; rw [if_neg (by decide)]
        | ⟨2, _⟩ => show 0 = if (1 : Nat) = 1 then 0 else j.val; rw [if_pos rfl]),
      broadcastInDim_apply _ bcast_S32x3_S32x3x1_0_1 _ _ (ValueIdx.ix2 b i) (fun a => by
        match a with
        | ⟨0, _⟩ => show b.val = if (32 : Nat) = 1 then 0 else b.val; rw [if_neg (by decide)]
        | ⟨1, _⟩ => show i.val = if (3 : Nat) = 1 then 0 else i.val; rw [if_neg (by decide)])]
  · rfl
  · rw [broadcastInDim_apply _ bcast_S32x1x3_S32x3x3_0_1_2 _ _ (ValueIdx.ix3 b 0 j) (fun a => by
        match a with
        | ⟨0, _⟩ => show b.val = if (32 : Nat) = 1 then 0 else b.val; rw [if_neg (by decide)]
        | ⟨1, _⟩ => show 0 = if (1 : Nat) = 1 then 0 else i.val; rw [if_pos rfl]
        | ⟨2, _⟩ => show j.val = if (3 : Nat) = 1 then 0 else j.val; rw [if_neg (by decide)]),
      broadcastInDim_apply _ bcast_S32x3_S32x1x3_0_2 _ _ (ValueIdx.ix2 b j) (fun a => by
        match a with
        | ⟨0, _⟩ => show b.val = if (32 : Nat) = 1 then 0 else b.val; rw [if_neg (by decide)]
        | ⟨1, _⟩ => show j.val = if (3 : Nat) = 1 then 0 else j.val; rw [if_neg (by decide)])]

/-- The kernel program's array of squared distances at `(b, i, j)`, from the two rotations and the Gram matrix:
    `(Rp·G·Rpᵀ)[i,i] − 2·(Rp·G·Rgᵀ)[i,j] + (Rg·G·Rgᵀ)[j,j]`, every product written out as a sum. -/
theorem dK_apply (Rp Rg G : (⟨S32x3x3, .f32⟩ : BufTy).Contents (Elt Ideal)) (b : Fin 32) (i j : Fin 3) :
    dK (F := Ideal) Rp Rg G (ValueIdx.ix3 b i j)
      = ((∑ k : Fin 3, (∑ l : Fin 3, Rp (ValueIdx.ix3 b i l) * G (ValueIdx.ix3 b l k)) * Rp (ValueIdx.ix3 b i k))
          - Ideal.ofBits .f32 0x40000000#32 * (∑ k : Fin 3, (∑ l : Fin 3, Rp (ValueIdx.ix3 b i l) * G (ValueIdx.ix3 b l k)) * Rg (ValueIdx.ix3 b j k)))
        + (∑ k : Fin 3, (∑ l : Fin 3, Rg (ValueIdx.ix3 b j l) * G (ValueIdx.ix3 b l k)) * Rg (ValueIdx.ix3 b j k)) := by
  unfold dK
  rw [dComb_apply, diagK_apply, diagK_apply]
  unfold mulART mulRG
  rw [dotART_apply, dotART_apply, dotART_apply]
  simp only [dotRG_apply]

end Cert.KernelIdeal.Hand

end
-- ==== Proof.Bridge.lean ====
import proofs.«141143_j824633721416_1_alg».proof.Proof.Basic
import proofs.«141143_j824633721416_1_alg».proof.Proof.Algebra
import proofs.«141143_j824633721416_1_alg».proof.Proof.RefAt
import proofs.«141143_j824633721416_1_alg».proof.Proof.PreFacts
import proofs.«141143_j824633721416_1_alg».proof.Proof.RotReal
import proofs.«141143_j824633721416_1_alg».proof.Proof.KIdK
import proofs.«141143_j824633721416_1_alg».proof.Proof.KIGram

noncomputable section

namespace Cert.Hand.Bridge

open Idealize.ShloMosaic Idealize.ShloMosaic.ValueIdx Cert.Hand

/-! ## The two arrays of squared distances are one array

    For batch `b`, row `i` of the first rotation matrix and row `j` of the second, the reference sums over the `N`
    points the square of the difference of the two rotated coordinates; the kernel program combines the three quadratic
    forms of those rows in the Gram matrix of the points. Where the rotation matrices and the points are real — which the
    precondition gives: finite inputs, and quaternions of positive squared norm, so that the normalisation divides by
    a positive real — the two are equal by expanding the square. -/

theorem d_eq (x0 x1 : (⟨Cert.ReferenceIdeal.S32x4, .f32⟩ : BufTy).Contents (Elt Ideal))
    (x2 : (⟨Cert.ReferenceIdeal.S32x3x262144, .f32⟩ : BufTy).Contents (Elt Ideal))
    (hRp : AllReal (Cert.ReferenceIdeal.Read.val_main_v68 (F := Ideal) x0))
    (hRg : AllReal (Cert.ReferenceIdeal.Read.val_main_v137 (F := Ideal) x1)) (hx2 : AllReal x2) :
    Cert.KernelIdeal.Hand.dK (F := Ideal) (Cert.ReferenceIdeal.Read.val_main_v68 (F := Ideal) x0)
        (Cert.ReferenceIdeal.Read.val_main_v137 (F := Ideal) x1) (Cert.KernelIdeal.Hand.gram x2)
      = Cert.ReferenceIdeal.Read.val_main_v146 (F := Ideal) x0 x1 x2 := by
  funext idx
  obtain ⟨b, i, j, rfl⟩ : ∃ (b : Fin 32) (i j : Fin 3), idx = ix3 b i j := ⟨idx 0, idx 1, idx 2, eq_ix3 idx⟩
  refine (Cert.KernelIdeal.Hand.dK_apply _ _ _ b i j).trans ?_
  refine Eq.trans ?_ (RefAt.ref_d_apply x0 x1 x2 b i j).symm
  rw [zero_add]
  exact (Algebra.gram_expand_ereal
    (fun k => Cert.ReferenceIdeal.Read.val_main_v68 (F := Ideal) x0 (ix3 b i k))
    (fun k => Cert.ReferenceIdeal.Read.val_main_v137 (F := Ideal) x1 (ix3 b j k))
    (fun k n => x2 (ix3 b k n)) _ Algebra.ofBits_two
    (fun k => hRp _) (fun k => hRg _) (fun k n => hx2 _)).symm

/-- Under the precondition the kernel program's result term is the reference's. -/
theorem result_eq (x0 x1 : (⟨Cert.ReferenceIdeal.S32x4, .f32⟩ : BufTy).Contents (Elt Ideal))
    (x2 : (⟨Cert.ReferenceIdeal.S32x3x262144, .f32⟩ : BufTy).Contents (Elt Ideal))
    (h : Cert.Pre_finite_inputs.fn (F := Ideal) x0 x1 x2 = fun _ => 1#1) :
    finTail (F := Ideal) (Cert.KernelIdeal.Hand.dK (F := Ideal) (Cert.ReferenceIdeal.Read.val_main_v68 (F := Ideal) x0)
        (Cert.ReferenceIdeal.Read.val_main_v137 (F := Ideal) x1) (Cert.KernelIdeal.Hand.gram x2))
      = Cert.ReferenceIdeal.Read.val_main_v152 (F := Ideal) x0 x1 x2 := by
  obtain ⟨h0, h1, h2, p0, p1⟩ := PreFacts.pre_facts x0 x1 x2 h
  rw [RefAt.ref_result_eq, d_eq x0 x1 x2 (RotReal.rot_pred_real x0 h0 p0) (RotReal.rot_gt_real x1 h1 p1) h2]

end Cert.Hand.Bridge

end
-- ==== Proof.lean ====
/-
  The kernel program computes, for each of 32 batches, the 3×3 Gram matrix `Γ = x xᵀ` of a 3×N array of points in one
  pass (a gridded kernel: batch `b` reads the block `x[b]` and stores `Γ[b]`), and then on the host the two rotation
  matrices `P = rot(predquat)`, `G = rot(gtquat)` of normalised quaternions, the quadratic forms `P Γ Pᵀ`, `G Γ Gᵀ`,
  `P Γ Gᵀ`, the array `d[b,i,j] = (PΓPᵀ)[i,i] − 2 (PΓGᵀ)[i,j] + (GΓGᵀ)[j,j]`, its minimum over `i`, and the mean
  over `j` and over the batch. The reference rotates the points, `p = P x`, `g = G x`, and takes
  `d[b,i,j] = Σ_n (g[j,n] − p[i,n])²` before the same last stretch.

  On the extended reals the two agree where every entry of `P`, `G` and `x` is a real number: expanding the square
  and exchanging finite sums is an identity of real polynomials (Proof/Algebra.lean), while it fails at infinite
  entries. The precondition gives exactly this: the inputs are finite and every quaternion has positive squared norm, so
  the normalisation divides by a positive real (Proof/PreFacts.lean, Proof/RotReal.lean).

  The modules: the kernel program's frame at either instance (Proof/KIFrame.lean, Proof/KFrame.lean: the launch of the
  region around the body's run, then the host operations after it, none of which writes an argument or the region's
  output array); the body's stored block as Gram sums (Proof/KIPay.lean) and the output array after the region
  (Proof/KIGram.lean); the host operations after the region read as one function (Proof/KITail.lean) and the array
  `d` they build read at an index (Proof/KIdK.lean); the reference's `d` read at an index (Proof/RefAt.lean); the
  equality of the two arrays (Proof/Bridge.lean); the reference's frame from its run (Proof/RefFrame.lean).
-/
import proofs.«141143_j824633721416_1_alg».proof.Defs
import proofs.«141143_j824633721416_1_alg».proof.Proof.Gen.Kernel
import proofs.«141143_j824633721416_1_alg».proof.Proof.Gen.KernelIdeal
import proofs.«141143_j824633721416_1_alg».proof.Proof.Gen.ReferenceIdeal
import proofs.«141143_j824633721416_1_alg».proof.Proof.Gen.Pre_finite_inputs
import proofs.«141143_j824633721416_1_alg».proof.Proof.KFrame
import proofs.«141143_j824633721416_1_alg».proof.Proof.KIFrame
import proofs.«141143_j824633721416_1_alg».proof.Proof.KIRun
import proofs.«141143_j824633721416_1_alg».proof.Proof.RefFrame
import proofs.«141143_j824633721416_1_alg».proof.Proof.Bridge
import Idealize.ShloMosaic.Adequacy
import Idealize.ShloMosaic.Init

noncomputable section

namespace Cert.Proof

open Idealize.ShloMosaic Idealize.SL.Sem

/-- The kernel program at the word-level instance: it runs to the end and leaves its arguments as launched. -/
theorem frame_k : Cert.frame_Kernel := fun m ρ _ => Cert.Kernel.Hand.frame (F := Bits) m ρ

/-- The same program read at the extended reals. -/
theorem frame_ki : Cert.frame_KernelIdeal := fun m ρ _ => Cert.KernelIdeal.Hand.frame (F := Ideal) m ρ

/-- The ideal pass rewrote nothing: there is nothing to preserve. -/
theorem preserves : Cert.preserves_Kernel_KernelIdeal := trivial

/-- From memories agreeing on the arguments both programs end with the reference's result term: the kernel program
    by its run read at the result and the equality of the two arrays of squared distances, the reference by its
    generated run. -/
theorem algebraic : Cert.algebraic_KernelIdeal_ReferenceIdeal := by
  intro m ρ m' ρ' hpre hagree
  refine ⟨fun c => Cert.ReferenceIdeal.Read.val_main_v152 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Hand.Bridge.result_eq _ _ _ (hpre c)), (h c).2⟩)
      (Cert.KernelIdeal.Hand.kernel_run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v152_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, Cert.Proof.RefClaims.frame_ri, preserves, algebraic⟩

end Cert.Proof

end
